-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x510 : Shape := ⟨2, ![50000, 510]⟩
abbrev S100000x1 : Shape := ⟨2, ![100000, 1]⟩
abbrev S100000x2 : Shape := ⟨2, ![100000, 2]⟩
abbrev S50000x2 : Shape := ⟨2, ![50000, 2]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S512x512 : Shape := ⟨2, ![512, 512]⟩
abbrev S_ : Shape := ⟨0, ![]⟩

class Facts : Prop where
  bcast_S_S50000x510 : S_.BroadcastsInDim S50000x510 (![] : Fin 0 → Fin S50000x510.rank)
  reducesTo_S50000x510_S_d0_1 : S50000x510.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S50000x2 : S_.BroadcastsInDim S50000x2 (![] : Fin 0 → Fin S50000x2.rank)
  reducesTo_S50000x2_S_d0_1 : S50000x2.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg8 : FVec F S512x512 .f32) (main_arg9 : FVec F S512 .f32) (main_arg10 : FVec F S512x512 .f32) (main_arg11 : FVec F S512 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg10
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg5 : FVec F S512 .f32) (main_arg6 : FVec F S1024x512 .f32) (main_arg7 : FVec F S1024 .f32) (main_arg8 : FVec F S512x512 .f32) (main_arg9 : FVec F S512 .f32) (main_arg10 : FVec F S512x512 .f32) (main_arg11 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg6
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x510 .f32) (main_arg1 : FVec F S100000x1 .f32) (main_arg2 : IVec S100000x2 32) (main_arg3 : FVec F S50000x2 .f32) (main_arg4 : FVec F S512x1024 .f32) (main_arg5 : FVec F S512 .f32) (main_arg6 : FVec F S1024x512 .f32) (main_arg7 : FVec F S1024 .f32) (main_arg8 : FVec F S512x512 .f32) (main_arg9 : FVec F S512 .f32) (main_arg10 : FVec F S512x512 .f32) (main_arg11 : FVec F S512 .f32) : IVec S_ 1 :=
  let main_v0 : FVec F S50000x510 .f32 := Host.absf main_arg0
  let main_cst : FVec F S_ .f32 := constant S_ .f32 0x7F800000#32
  let main_v1 : FVec F S50000x510 .f32 := broadcastInDim S50000x510 ![] bcast_S_S50000x510 main_cst
  let main_v2 : IVec S50000x510 1 := cmpf .olt main_v0 main_v1
  let main_c : IVec S_ 1 := constantI S_ 1 1#1
  let main_v3 : IVec S_ 1 := (fun x v => Host.reduce IntOp.andi x v reducesTo_S50000x510_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S50000x2 .f32 := Host.absf main_arg3
  let main_cst_2 : FVec F S_ .f32 := constant S_ .f32 0x7F800000#32
  let main_v10 : FVec F S50000x2 .f32 := broadcastInDim S50000x2 ![] bcast_S_S50000x2 main_cst_2
  let main_v11 : IVec S50000x2 1 := cmpf .olt main_v9 main_v10
  let main_c_3 : IVec S_ 1 := constantI S_ 1 1#1
  let main_v12 : IVec S_ 1 := (fun x v => Host.reduce IntOp.andi x v reducesTo_S50000x2_S_d0_1 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg5 main_arg6 main_arg7 main_arg8 main_arg9 main_arg10 main_arg11 main_v13 main_v16
-- ==== Kernel.lean ====
abbrev S50000x510 : Shape := ⟨2, ![50000, 510]⟩
abbrev S100000x1 : Shape := ⟨2, ![100000, 1]⟩
abbrev S100000x2 : Shape := ⟨2, ![100000, 2]⟩
abbrev S50000x2 : Shape := ⟨2, ![50000, 2]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S512x512 : Shape := ⟨2, ![512, 512]⟩
abbrev S50000x512 : Shape := ⟨2, ![50000, 512]⟩
abbrev S100000 : Shape := ⟨1, ![100000]⟩
abbrev S_ : Shape := ⟨0, ![]⟩
abbrev S100000x512 : Shape := ⟨2, ![100000, 512]⟩
abbrev S1x512 : Shape := ⟨2, ![1, 512]⟩
abbrev S1x1024 : Shape := ⟨2, ![1, 1024]⟩
abbrev S800x512 : Shape := ⟨2, ![800, 512]⟩
abbrev S800x1 : Shape := ⟨2, ![800, 1]⟩
abbrev S800x1024 : Shape := ⟨2, ![800, 1024]⟩
abbrev S50000 : Shape := ⟨1, ![50000]⟩
abbrev S50000x1 : Shape := ⟨2, ![50000, 1]⟩
abbrev S1000x512 : Shape := ⟨2, ![1000, 512]⟩
abbrev S1000x1 : Shape := ⟨2, ![1000, 1]⟩

abbrev nBuf : Space → Nat
  | .hbm => 98
  | .vmem => 25
  | .smem => 0
  | _ => 0

abbrev bufTy : (tb : Table) → Fin (tcTables nBuf tb) → BufTy
  | .hbm, ⟨0, _⟩ => ⟨S50000x510, .f32⟩
  | .hbm, ⟨1, _⟩ => ⟨S100000x1, .f32⟩
  | .hbm, ⟨2, _⟩ => ⟨S100000x2, .i32⟩
  | .hbm, ⟨3, _⟩ => ⟨S50000x2, .f32⟩
  | .hbm, ⟨4, _⟩ => ⟨S512x1024, .f32⟩
  | .hbm, ⟨5, _⟩ => ⟨S512, .f32⟩
  | .hbm, ⟨6, _⟩ => ⟨S1024x512, .f32⟩
  | .hbm, ⟨7, _⟩ => ⟨S1024, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S50000x512, .f32⟩
  | .hbm, ⟨13, _⟩ => ⟨S50000x512, .bf16⟩
  | .hbm, ⟨14, _⟩ => ⟨S100000x1, .i32⟩
  | .hbm, ⟨15, _⟩ => ⟨S100000, .i32⟩
  | .hbm, ⟨16, _⟩ => ⟨S100000x1, .i32⟩
  | .hbm, ⟨17, _⟩ => ⟨S100000, .i32⟩
  | .hbm, ⟨18, _⟩ => ⟨S_, .i32⟩
  | .hbm, ⟨19, _⟩ => ⟨S100000, .i32⟩
  | .hbm, ⟨20, _⟩ => ⟨S100000, .i1⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S100000, .i32⟩
  | .hbm, ⟨25, _⟩ => ⟨S100000x1, .i32⟩
  | .hbm, ⟨26, _⟩ => ⟨S100000x512, .bf16⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i32⟩
  | .hbm, ⟨33, _⟩ => ⟨S100000, .i32⟩
  | .hbm, ⟨34, _⟩ => ⟨S100000x1, .i32⟩
  | .hbm, ⟨35, _⟩ => ⟨S100000x512, .bf16⟩
  | .hbm, ⟨36, _⟩ => ⟨S512x512, .f32⟩
  | .hbm, ⟨37, _⟩ => ⟨S512x512, .f32⟩
  | .hbm, ⟨38, _⟩ => ⟨S512x512, .bf16⟩
  | .hbm, ⟨39, _⟩ => ⟨S512x512, .f32⟩
  | .hbm, ⟨40, _⟩ => ⟨S512x512, .f32⟩
  | .hbm, ⟨41, _⟩ => ⟨S512x512, .bf16⟩
  | .hbm, ⟨42, _⟩ => ⟨S1x512, .f32⟩
  | .hbm, ⟨43, _⟩ => ⟨S512x1024, .f32⟩
  | .hbm, ⟨44, _⟩ => ⟨S512x1024, .bf16⟩
  | .hbm, ⟨45, _⟩ => ⟨S1x1024, .f32⟩
  | .hbm, ⟨46, _⟩ => ⟨S100000x512, .f32⟩
  | .hbm, ⟨47, _⟩ => ⟨S100000x512, .f32⟩
  | .hbm, ⟨48, _⟩ => ⟨S_, .f32⟩
  | .hbm, ⟨49, _⟩ => ⟨S50000x512, .f32⟩
  | .hbm, ⟨50, _⟩ => ⟨S_, .i32⟩
  | .hbm, ⟨51, _⟩ => ⟨S100000, .i32⟩
  | .hbm, ⟨52, _⟩ => ⟨S100000, .i1⟩
  | .hbm, ⟨53, _⟩ => ⟨S_, .i32⟩
  | .hbm, ⟨54, _⟩ => ⟨S100000, .i32⟩
  | .hbm, ⟨55, _⟩ => ⟨S100000, .i32⟩
  | .hbm, ⟨56, _⟩ => ⟨S100000, .i32⟩
  | .hbm, ⟨57, _⟩ => ⟨S100000x1, .i32⟩
  | .hbm, ⟨58, _⟩ => ⟨S50000x512, .f32⟩
  | .hbm, ⟨59, _⟩ => ⟨S_, .i32⟩
  | .hbm, ⟨60, _⟩ => ⟨S100000, .i32⟩
  | .hbm, ⟨61, _⟩ => ⟨S100000, .i1⟩
  | .hbm, ⟨62, _⟩ => ⟨S_, .i32⟩
  | .hbm, ⟨63, _⟩ => ⟨S100000, .i32⟩
  | .hbm, ⟨64, _⟩ => ⟨S100000, .i32⟩
  | .hbm, ⟨65, _⟩ => ⟨S100000, .i32⟩
  | .hbm, ⟨66, _⟩ => ⟨S100000x1, .i32⟩
  | .hbm, ⟨67, _⟩ => ⟨S50000x512, .f32⟩
  | .hbm, ⟨68, _⟩ => ⟨S_, .f32⟩
  | .hbm, ⟨69, _⟩ => ⟨S100000, .f32⟩
  | .hbm, ⟨70, _⟩ => ⟨S_, .f32⟩
  | .hbm, ⟨71, _⟩ => ⟨S50000, .f32⟩
  | .hbm, ⟨72, _⟩ => ⟨S_, .i32⟩
  | .hbm, ⟨73, _⟩ => ⟨S100000, .i32⟩
  | .hbm, ⟨74, _⟩ => ⟨S100000, .i1⟩
  | .hbm, ⟨75, _⟩ => ⟨S_, .i32⟩
  | .hbm, ⟨76, _⟩ => ⟨S100000, .i32⟩
  | .hbm, ⟨77, _⟩ => ⟨S100000, .i32⟩
  | .hbm, ⟨78, _⟩ => ⟨S100000, .i32⟩
  | .hbm, ⟨79, _⟩ => ⟨S100000x1, .i32⟩
  | .hbm, ⟨80, _⟩ => ⟨S50000, .f32⟩
  | .hbm, ⟨81, _⟩ => ⟨S_, .i32⟩
  | .hbm, ⟨82, _⟩ => ⟨S100000, .i32⟩
  | .hbm, ⟨83, _⟩ => ⟨S100000, .i1⟩
  | .hbm, ⟨84, _⟩ => ⟨S_, .i32⟩
  | .hbm, ⟨85, _⟩ => ⟨S100000, .i32⟩
  | .hbm, ⟨86, _⟩ => ⟨S100000, .i32⟩
  | .hbm, ⟨87, _⟩ => ⟨S100000, .i32⟩
  | .hbm, ⟨88, _⟩ => ⟨S100000x1, .i32⟩
  | .hbm, ⟨89, _⟩ => ⟨S50000, .f32⟩
  | .hbm, ⟨90, _⟩ => ⟨S50000x1, .f32⟩
  | .hbm, ⟨91, _⟩ => ⟨S512x512, .f32⟩
  | .hbm, ⟨92, _⟩ => ⟨S512x512, .bf16⟩
  | .hbm, ⟨93, _⟩ => ⟨S1x512, .f32⟩
  | .hbm, ⟨94, _⟩ => ⟨S512x512, .f32⟩
  | .hbm, ⟨95, _⟩ => ⟨S512x512, .bf16⟩
  | .hbm, ⟨96, _⟩ => ⟨S1x512, .f32⟩
  | .hbm, ⟨97, _⟩ => ⟨S50000x512, .f32⟩
  | .local _ .vmem, ⟨0, _⟩ => ⟨S800x512, .bf16⟩
  | .local _ .vmem, ⟨1, _⟩ => ⟨S800x512, .bf16⟩
  | .local _ .vmem, ⟨2, _⟩ => ⟨S800x512, .bf16⟩
  | .local _ .vmem, ⟨3, _⟩ => ⟨S800x512, .bf16⟩
  | .local _ .vmem, ⟨4, _⟩ => ⟨S800x1, .f32⟩
  | .local _ .vmem, ⟨5, _⟩ => ⟨S800x1, .f32⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S512x1024, .bf16⟩
  | .local _ .vmem, ⟨10, _⟩ => ⟨S1x1024, .f32⟩
  | .local _ .vmem, ⟨11, _⟩ => ⟨S800x512, .f32⟩
  | .local _ .vmem, ⟨12, _⟩ => ⟨S800x512, .f32⟩
  | .local _ .vmem, ⟨13, _⟩ => ⟨S800x512, .f32⟩
  | .local _ .vmem, ⟨14, _⟩ => ⟨S800x512, .f32⟩
  | .local _ .vmem, ⟨15, _⟩ => ⟨S1000x512, .f32⟩
  | .local _ .vmem, ⟨16, _⟩ => ⟨S1000x512, .f32⟩
  | .local _ .vmem, ⟨17, _⟩ => ⟨S1000x1, .f32⟩
  | .local _ .vmem, ⟨18, _⟩ => ⟨S1000x1, .f32⟩
  | .local _ .vmem, ⟨19, _⟩ => ⟨S512x512, .bf16⟩
  | .local _ .vmem, ⟨20, _⟩ => ⟨S1x512, .f32⟩
  | .local _ .vmem, ⟨21, _⟩ => ⟨S512x512, .bf16⟩
  | .local _ .vmem, ⟨22, _⟩ => ⟨S1x512, .f32⟩
  | .local _ .vmem, ⟨23, _⟩ => ⟨S1000x512, .f32⟩
  | .local _ .vmem, ⟨24, _⟩ => ⟨S1000x512, .f32⟩
  | _, _ => ⟨S50000x510, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev main_cst : Ref sig .tc := ⟨.hbm, 48, rfl⟩
abbrev main_v31 : Ref sig .tc := ⟨.hbm, 49, rfl⟩
abbrev main_c_3 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S800x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S800x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  concatenates_S50000x510_S50000x2_S50000x512_d1 : Shape.Concatenates [S50000x510, S50000x2] S50000x512 1
  bitsLt_bf16_f32 : FTy.bits .bf16 < FTy.bits .f32
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  slices_S512x1024_S512x512_0_0 : S512x1024.Slices ![0, 0] S512x512
  transposes_S512x512_S512x512_1_0 : S512x512.Transposes [1, 0] S512x512
  slices_S512x1024_S512x512_0_512 : S512x1024.Slices ![0, 512] S512x512
  shapeCasts_S512_S1x512 : S512.ShapeCasts S1x512
  transposes_S1024x512_S512x1024_1_0 : S1024x512.Transposes [1, 0] S512x1024
  shapeCasts_S1024_S1x1024 : S1024.ShapeCasts S1x1024
  inb_S800x1_S800x1_0_0 : ∀ a, (![0, 0] : Fin 2 → Nat) a + S800x1.size a ≤ S800x1.size a
  h_S800x1 : 0 < S800x1.numel
  inb_S800x512_S800x512_0_0 : ∀ a, (![0, 0] : Fin 2 → Nat) a + S800x512.size a ≤ S800x512.size a
  h_S800x512 : 0 < S800x512.numel
  shapeCasts_S800x512_S800x512 : S800x512.ShapeCasts S800x512
  broadcasts_S800x1_S800x512 : S800x1.Broadcasts S800x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S800x512 : S1x512.Broadcasts S800x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S800x1024 : S1x1024.Broadcasts S800x1024
  slices_S800x1024_o0_0_S800x512 : S800x1024.Slices ![0, 0] S800x512
  slices_S800x1024_o0_512_S800x512 : S800x1024.Slices ![0, 512] S800x512
  bcast_S_S50000x512 : S_.BroadcastsInDim S50000x512 (![] : Fin 0 → Fin S50000x512.rank)
  bcast_S_S50000 : S_.BroadcastsInDim S50000 (![] : Fin 0 → Fin S50000.rank)
  shapeCasts_S50000_S50000x1 : S50000.ShapeCasts S50000x1
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  broadcasts_S1x512_S1000x512 : S1x512.Broadcasts S1000x512
  gather_S50000x512_S100000x1_S100000x512_1_0_n_n_0_1_1512_wf : GatherDims.WF S50000x512 S100000x1 S100000x512 [1] [0] [] [0] [] 1 ![1, 512]
  dot_S800x512_S512x512_S800x512_1_0_0_1_n_n_wf : DotDims.WF S800x512 S512x512 S800x512 [1] [0] [0] [1] [] []
  dot_S800x512_S512x1024_S800x1024_1_0_0_1_n_n_wf : DotDims.WF S800x512 S512x1024 S800x1024 [1] [0] [0] [1] [] []
  scatter_S50000x512_S100000x1_S100000x512_1_0_0_1_wf : ScatterDims.WF S50000x512 S100000x1 S100000x512 [1] [0] [0] 1
  scatter_S50000_S100000x1_S100000_n_0_0_1_wf : ScatterDims.WF S50000 S100000x1 S100000 [] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x512.size a ≤ S100000x512.size a
  hwx0_0 : ∀ i : grid0.Coords, EltTy.bits .bf16 = 32 ∨ (Rect.block (s := S100000x512) S800x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x512.size a ≤ S100000x512.size a
  hwx0_1 : ∀ i : grid0.Coords, EltTy.bits .bf16 = 32 ∨ (Rect.block (s := S100000x512) S800x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x1.size a ≤ S100000x1.size a
  hwx0_2 : ∀ i : grid0.Coords, EltTy.bits .f32 = 32 ∨ (Rect.block (s := S100000x1) S800x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .bf16 = 32 ∨ (Rect.block (s := S512x1024) S512x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S800x512.size a ≤ S100000x512.size a
  hwx0_8 : ∀ i : grid0.Coords, EltTy.bits .f32 = 32 ∨ (Rect.block (s := S100000x512) S800x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S800x512.size a ≤ S100000x512.size a
  hwx0_9 : ∀ i : grid0.Coords, EltTy.bits .f32 = 32 ∨ (Rect.block (s := S100000x512) S800x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S50000x1.size a
  hwx1_1 : ∀ i : grid1.Coords, EltTy.bits .f32 = 32 ∨ (Rect.block (s := S50000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x512.size a ≤ S50000x512.size a
  hwx1_6 : ∀ i : grid1.Coords, EltTy.bits .f32 = 32 ∨ (Rect.block (s := S50000x512) S1000x512.size (cc1_transform_6 i) (hinb1_6 i)).WholeWords (EltTy.packing .f32)

variable [Facts₀]

def gather_S50000x512_S100000x1_S100000x512_1_0_n_n_0_1_1512 : GatherDims S50000x512 S100000x1 S100000x512 where
  offsetDims := [1]
  collapsedSliceDims := [0]
  operandBatchingDims := []
  startIndicesBatchingDims := []
  startIndexMap := [0]
  indexVectorDim := 1
  sliceSizes := ![1, 512]
  wf := gather_S50000x512_S100000x1_S100000x512_1_0_n_n_0_1_1512_wf
def dot_S800x512_S512x512_S800x512_1_0_0_1_n_n : DotDims S800x512 S512x512 S800x512 where
  lhsContracting := [1]
  rhsContracting := [0]
  lhsNonContracting := [0]
  rhsNonContracting := [1]
  lhsBatch := []
  rhsBatch := []
  wf := dot_S800x512_S512x512_S800x512_1_0_0_1_n_n_wf
def dot_S800x512_S512x1024_S800x1024_1_0_0_1_n_n : DotDims S800x512 S512x1024 S800x1024 where
  lhsContracting := [1]
  rhsContracting := [0]
  lhsNonContracting := [0]
  rhsNonContracting := [1]
  lhsBatch := []
  rhsBatch := []
  wf := dot_S800x512_S512x1024_S800x1024_1_0_0_1_n_n_wf
def scatter_S50000x512_S100000x1_S100000x512_1_0_0_1 : ScatterDims S50000x512 S100000x1 S100000x512 where
  updateWindowDims := [1]
  insertedWindowDims := [0]
  scatterDimsToOperandDims := [0]
  indexVectorDim := 1
  wf := scatter_S50000x512_S100000x1_S100000x512_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v12) S800x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S800x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S800x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30_0) S800x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v30_1) S800x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v45) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v69) S1000x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x510 : Shape := ⟨2, ![50000, 510]⟩
abbrev S100000x1 : Shape := ⟨2, ![100000, 1]⟩
abbrev S100000x2 : Shape := ⟨2, ![100000, 2]⟩
abbrev S50000x2 : Shape := ⟨2, ![50000, 2]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S512x512 : Shape := ⟨2, ![512, 512]⟩
abbrev S50000x512 : Shape := ⟨2, ![50000, 512]⟩
abbrev S100000 : Shape := ⟨1, ![100000]⟩
abbrev S_ : Shape := ⟨0, ![]⟩
abbrev S100000x512 : Shape := ⟨2, ![100000, 512]⟩
abbrev S100000x1024 : Shape := ⟨2, ![100000, 1024]⟩
abbrev S1x512 : Shape := ⟨2, ![1, 512]⟩
abbrev S1x1024 : Shape := ⟨2, ![1, 1024]⟩
abbrev S50000 : Shape := ⟨1, ![50000]⟩
abbrev S50000x1 : Shape := ⟨2, ![50000, 1]⟩

abbrev nBuf : Space → Nat
  | .hbm => 121
  | .vmem => 0
  | .smem => 0
  | _ => 0

abbrev bufTy : (tb : Table) → Fin (tcTables nBuf tb) → BufTy
  | .hbm, ⟨0, _⟩ => ⟨S50000x510, .f32⟩
  | .hbm, ⟨1, _⟩ => ⟨S100000x1, .f32⟩
  | .hbm, ⟨2, _⟩ => ⟨S100000x2, .i32⟩
  | .hbm, ⟨3, _⟩ => ⟨S50000x2, .f32⟩
  | .hbm, ⟨4, _⟩ => ⟨S512x1024, .f32⟩
  | .hbm, ⟨5, _⟩ => ⟨S512, .f32⟩
  | .hbm, ⟨6, _⟩ => ⟨S1024x512, .f32⟩
  | .hbm, ⟨7, _⟩ => ⟨S1024, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S50000x512, .f32⟩
  | .hbm, ⟨13, _⟩ => ⟨S100000x1, .i32⟩
  | .hbm, ⟨14, _⟩ => ⟨S100000, .i32⟩
  | .hbm, ⟨15, _⟩ => ⟨S100000x1, .i32⟩
  | .hbm, ⟨16, _⟩ => ⟨S100000, .i32⟩
  | .hbm, ⟨17, _⟩ => ⟨S_, .i32⟩
  | .hbm, ⟨18, _⟩ => ⟨S100000, .i32⟩
  | .hbm, ⟨19, _⟩ => ⟨S100000, .i1⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000, .i32⟩
  | .hbm, ⟨24, _⟩ => ⟨S100000x1, .i32⟩
  | .hbm, ⟨25, _⟩ => ⟨S100000x512, .f32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S100000x512, .f32⟩
  | .hbm, ⟨35, _⟩ => ⟨S100000x1024, .f32⟩
  | .hbm, ⟨36, _⟩ => ⟨S100000x1024, .f32⟩
  | .hbm, ⟨37, _⟩ => ⟨S100000x1024, .f32⟩
  | .hbm, ⟨38, _⟩ => ⟨S1024x512, .f32⟩
  | .hbm, ⟨39, _⟩ => ⟨S100000x512, .f32⟩
  | .hbm, ⟨40, _⟩ => ⟨S1x512, .f32⟩
  | .hbm, ⟨41, _⟩ => ⟨S100000x512, .f32⟩
  | .hbm, ⟨42, _⟩ => ⟨S100000x512, .f32⟩
  | .hbm, ⟨43, _⟩ => ⟨S_, .f32⟩
  | .hbm, ⟨44, _⟩ => ⟨S100000x512, .f32⟩
  | .hbm, ⟨45, _⟩ => ⟨S100000x512, .f32⟩
  | .hbm, ⟨46, _⟩ => ⟨S512x1024, .f32⟩
  | .hbm, ⟨47, _⟩ => ⟨S100000x1024, .f32⟩
  | .hbm, ⟨48, _⟩ => ⟨S1x1024, .f32⟩
  | .hbm, ⟨49, _⟩ => ⟨S100000x1024, .f32⟩
  | .hbm, ⟨50, _⟩ => ⟨S100000x1024, .f32⟩
  | .hbm, ⟨51, _⟩ => ⟨S_, .f32⟩
  | .hbm, ⟨52, _⟩ => ⟨S100000x1024, .f32⟩
  | .hbm, ⟨53, _⟩ => ⟨S100000x1024, .f32⟩
  | .hbm, ⟨54, _⟩ => ⟨S100000x512, .f32⟩
  | .hbm, ⟨55, _⟩ => ⟨S100000x512, .f32⟩
  | .hbm, ⟨56, _⟩ => ⟨S_, .f32⟩
  | .hbm, ⟨57, _⟩ => ⟨S50000x512, .f32⟩
  | .hbm, ⟨58, _⟩ => ⟨S_, .i32⟩
  | .hbm, ⟨59, _⟩ => ⟨S100000, .i32⟩
  | .hbm, ⟨60, _⟩ => ⟨S100000, .i1⟩
  | .hbm, ⟨61, _⟩ => ⟨S_, .i32⟩
  | .hbm, ⟨62, _⟩ => ⟨S100000, .i32⟩
  | .hbm, ⟨63, _⟩ => ⟨S100000, .i32⟩
  | .hbm, ⟨64, _⟩ => ⟨S100000, .i32⟩
  | .hbm, ⟨65, _⟩ => ⟨S100000x1, .i32⟩
  | .hbm, ⟨66, _⟩ => ⟨S50000x512, .f32⟩
  | .hbm, ⟨67, _⟩ => ⟨S_, .i32⟩
  | .hbm, ⟨68, _⟩ => ⟨S100000, .i32⟩
  | .hbm, ⟨69, _⟩ => ⟨S100000, .i1⟩
  | .hbm, ⟨70, _⟩ => ⟨S_, .i32⟩
  | .hbm, ⟨71, _⟩ => ⟨S100000, .i32⟩
  | .hbm, ⟨72, _⟩ => ⟨S100000, .i32⟩
  | .hbm, ⟨73, _⟩ => ⟨S100000, .i32⟩
  | .hbm, ⟨74, _⟩ => ⟨S100000x1, .i32⟩
  | .hbm, ⟨75, _⟩ => ⟨S50000x512, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S50000, .f32⟩
  | .hbm, ⟨80, _⟩ => ⟨S_, .i32⟩
  | .hbm, ⟨81, _⟩ => ⟨S100000, .i32⟩
  | .hbm, ⟨82, _⟩ => ⟨S100000, .i1⟩
  | .hbm, ⟨83, _⟩ => ⟨S_, .i32⟩
  | .hbm, ⟨84, _⟩ => ⟨S100000, .i32⟩
  | .hbm, ⟨85, _⟩ => ⟨S100000, .i32⟩
  | .hbm, ⟨86, _⟩ => ⟨S100000, .i32⟩
  | .hbm, ⟨87, _⟩ => ⟨S100000x1, .i32⟩
  | .hbm, ⟨88, _⟩ => ⟨S50000, .f32⟩
  | .hbm, ⟨89, _⟩ => ⟨S_, .i32⟩
  | .hbm, ⟨90, _⟩ => ⟨S100000, .i32⟩
  | .hbm, ⟨91, _⟩ => ⟨S100000, .i1⟩
  | .hbm, ⟨92, _⟩ => ⟨S_, .i32⟩
  | .hbm, ⟨93, _⟩ => ⟨S100000, .i32⟩
  | .hbm, ⟨94, _⟩ => ⟨S100000, .i32⟩
  | .hbm, ⟨95, _⟩ => ⟨S100000, .i32⟩
  | .hbm, ⟨96, _⟩ => ⟨S100000x1, .i32⟩
  | .hbm, ⟨97, _⟩ => ⟨S50000, .f32⟩
  | .hbm, ⟨98, _⟩ => ⟨S_, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x512, .f32⟩
  | .hbm, ⟨104, _⟩ => ⟨S50000x512, .f32⟩
  | .hbm, ⟨105, _⟩ => ⟨S512x512, .f32⟩
  | .hbm, ⟨106, _⟩ => ⟨S50000x512, .f32⟩
  | .hbm, ⟨107, _⟩ => ⟨S1x512, .f32⟩
  | .hbm, ⟨108, _⟩ => ⟨S50000x512, .f32⟩
  | .hbm, ⟨109, _⟩ => ⟨S50000x512, .f32⟩
  | .hbm, ⟨110, _⟩ => ⟨S_, .f32⟩
  | .hbm, ⟨111, _⟩ => ⟨S50000x512, .f32⟩
  | .hbm, ⟨112, _⟩ => ⟨S50000x512, .f32⟩
  | .hbm, ⟨113, _⟩ => ⟨S512x512, .f32⟩
  | .hbm, ⟨114, _⟩ => ⟨S50000x512, .f32⟩
  | .hbm, ⟨115, _⟩ => ⟨S1x512, .f32⟩
  | .hbm, ⟨116, _⟩ => ⟨S50000x512, .f32⟩
  | .hbm, ⟨117, _⟩ => ⟨S50000x512, .f32⟩
  | .hbm, ⟨118, _⟩ => ⟨S_, .f32⟩
  | .hbm, ⟨119, _⟩ => ⟨S50000x512, .f32⟩
  | .hbm, ⟨120, _⟩ => ⟨S50000x512, .f32⟩
  | _, _ => ⟨S50000x510, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_v36 : Ref sig .tc := ⟨.hbm, 57, rfl⟩
abbrev main_c_3 : Ref sig .tc := ⟨.hbm, 58, rfl⟩
abbrev main_v37 : Ref sig .tc := ⟨.hbm, 59, rfl⟩
abbrev main_v38 : Ref sig .tc := ⟨.hbm, 60, rfl⟩
abbrev main_c_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_5 : Ref sig .tc := ⟨.hbm, 67, rfl⟩
abbrev main_v44 : Ref sig .tc := ⟨.hbm, 68, rfl⟩
abbrev main_v45 : Ref sig .tc := ⟨.hbm, 69, rfl⟩
abbrev main_c_6 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_v61 : Ref sig .tc := ⟨.hbm, 91, rfl⟩
abbrev main_c_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_call2_v0 : Ref sig .tc := ⟨.hbm, 99, rfl⟩
abbrev main_call2_v1 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_call3_cst : Ref sig .tc := ⟨.hbm, 110, rfl⟩
abbrev main_call3_v0 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call4_cst : Ref sig .tc := ⟨.hbm, 118, rfl⟩
abbrev main_call4_v0 : Ref sig .tc := ⟨.hbm, 119, rfl⟩
abbrev main_v82 : Ref sig .tc := ⟨.hbm, 120, rfl⟩

abbrev nD : Nat := 1
abbrev τ : Topo := Topo.v7x

variable {F : FTy → Type} [FloatOps F]

class Facts₀ : Prop where
  concatenates_S50000x510_S50000x2_S50000x512_d1 : Shape.Concatenates [S50000x510, S50000x2] S50000x512 1
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  concatenates_S100000x512_S100000x512_S100000x1024_d1 : Shape.Concatenates [S100000x512, S100000x512] S100000x1024 1
  bcast_S100000x1_S100000x1024_0_1 : S100000x1.BroadcastsInDim S100000x1024 (![0, 1] : Fin 2 → Fin S100000x1024.rank)
  transposes_S512x1024_S1024x512_1_0 : S512x1024.Transposes [1, 0] S1024x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  bcast_S_S100000x1024 : S_.BroadcastsInDim S100000x1024 (![] : Fin 0 → Fin S100000x1024.rank)
  slices_S100000x1024_S100000x512_0_0 : S100000x1024.Slices ![0, 0] S100000x512
  slices_S100000x1024_S100000x512_0_512 : S100000x1024.Slices ![0, 512] S100000x512
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  transposes_S512x512_S512x512_1_0 : S512x512.Transposes [1, 0] S512x512
  bcast_S1x512_S50000x512_0_1 : S1x512.BroadcastsInDim S50000x512 (![0, 1] : Fin 2 → Fin S50000x512.rank)
  gather_S50000x512_S100000x1_S100000x512_1_0_n_n_0_1_1512_wf : GatherDims.WF S50000x512 S100000x1 S100000x512 [1] [0] [] [0] [] 1 ![1, 512]
  dot_S100000x1024_S1024x512_S100000x512_1_0_0_1_n_n_wf : DotDims.WF S100000x1024 S1024x512 S100000x512 [1] [0] [0] [1] [] []
  dot_S100000x512_S512x1024_S100000x1024_1_0_0_1_n_n_wf : DotDims.WF S100000x512 S512x1024 S100000x1024 [1] [0] [0] [1] [] []
  scatter_S50000x512_S100000x1_S100000x512_1_0_0_1_wf : ScatterDims.WF S50000x512 S100000x1 S100000x512 [1] [0] [0] 1
  scatter_S50000_S100000x1_S100000_n_0_0_1_wf : ScatterDims.WF S50000 S100000x1 S100000 [] [0] [0] 1
  dot_S50000x512_S512x512_S50000x512_1_0_0_1_n_n_wf : DotDims.WF S50000x512 S512x512 S50000x512 [1] [0] [0] [1] [] []

variable [Facts₀]

def gather_S50000x512_S100000x1_S100000x512_1_0_n_n_0_1_1512 : GatherDims S50000x512 S100000x1 S100000x512 where
  offsetDims := [1]
  collapsedSliceDims := [0]
  operandBatchingDims := []
  startIndicesBatchingDims := []
  startIndexMap := [0]
  indexVectorDim := 1
  sliceSizes := ![1, 512]
  wf := gather_S50000x512_S100000x1_S100000x512_1_0_n_n_0_1_1512_wf
def dot_S100000x1024_S1024x512_S100000x512_1_0_0_1_n_n : DotDims S100000x1024 S1024x512 S100000x512 where
  lhsContracting := [1]
  rhsContracting := [0]
  lhsNonContracting := [0]
  rhsNonContracting := [1]
  lhsBatch := []
  rhsBatch := []
  wf := dot_S100000x1024_S1024x512_S100000x512_1_0_0_1_n_n_wf
def dot_S100000x512_S512x1024_S100000x1024_1_0_0_1_n_n : DotDims S100000x512 S512x1024 S100000x1024 where
  lhsContracting := [1]
  rhsContracting := [0]
  lhsNonContracting := [0]
  rhsNonContracting := [1]
  lhsBatch := []
  rhsBatch := []
  wf := dot_S100000x512_S512x1024_S100000x1024_1_0_0_1_n_n_wf
def scatter_S50000x512_S100000x1_S100000x512_1_0_0_1 : ScatterDims S50000x512 S100000x1 S100000x512 where
  updateWindowDims := [1]
  insertedWindowDims := [0]
  scatterDimsToOperandDims := [0]
  indexVectorDim := 1
  wf := scatter_S50000x512_S100000x1_S100000x512_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.KernelRun.lean ====
/-
  The idealized kernel's run with its result named.

  @main is four segments: a stretch of host operations, the edge region, a second stretch of host operations, the
  node region. The contents of the core's buffers at each boundary are a fold through those segments from the launch
  memory: after the first stretch, after the edge region's write-backs, after the second stretch, after the node
  region's write-backs (the last is `W4`). Every weakly fair execution terminates without a fault in a state whose
  unscoped buffers hold exactly those last contents; read at the twelve arguments this is the frame, and read at the
  result buffer it names the result: the node region's output array as its write-backs leave it.
-/
import proofs.«146360_j67980742361871_2_alg».proof.Proof.Gen.KernelIdeal.Frame

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v69) = W4 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v69 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelRun

end
-- ==== Proof.Layers.lean ====
/-
  The two stages of the network as functions of arrays of extended reals, and the one law that joins the two
  arrangements of its first layer.

  A layer is "rows against a weight, plus a bias row, clamped below at zero": entry (p, q) of `dense x w b` is
  max (Σ_c x(p,c) · w(c,q) + b(0,q)) 0. The first layer of the edge stage is computed in one program from the
  source row and the object row of an edge joined side by side into one row of length k + k, each entry scaled by the
  edge's weight, against the whole weight; in the other from the two rows separately, against the top k rows and the
  bottom k rows of the weight, the two products added. A sum over k + k positions is the sum over the first k plus
  the sum over the last k, in any commutative monoid, so the two arrangements agree on the extended reals with no
  finiteness assumption. Every layer reads row p of its left operand only, which is what lets a block of rows be
  computed apart from the others.
-/
import Idealize.ShloMosaic.Lib.ValueIdx
import Idealize.ShloMosaic.PureOps.Ideal
import Mathlib.Algebra.BigOperators.Fin

noncomputable section

namespace Cert.Layers

open Idealize.ShloMosaic Idealize.ShloMosaic.ValueIdx
open scoped BigOperators

/-- An a × b array of extended reals. -/
abbrev Mat (a b : Nat) : Type := (⟨2, ![a, b]⟩ : Shape).Idx → EReal

/-- The float zero, as the word both programs print. -/
def zeroF : EReal := Ideal.ofBits .f32 0x00000000#32
/-- The float one, as the word both programs print. -/
def oneF : EReal := Ideal.ofBits .f32 0x3F800000#32

/-- A linear layer and the clamp at zero. -/
def dense {a k n : Nat} (x : Mat a k) (w : Mat k n) (b : Mat 1 n) : Mat a n :=
  fun j => max ((∑ c : Fin k, x (ix2 (j 0) c) * w (ix2 c (j 1))) + b (ix2 (0 : Fin 1) (j 1))) zeroF

theorem dense_apply {a k n : Nat} (x : Mat a k) (w : Mat k n) (b : Mat 1 n) (p : Fin a) (q : Fin n) :
    dense x w b (ix2 p q) = max ((∑ c : Fin k, x (ix2 p c) * w (ix2 c q)) + b (ix2 (0 : Fin 1) q)) zeroF := rfl

/-- The first edge layer in two products: the source rows against one weight, the object rows against another, each
    row scaled by its edge's weight first; the two products added, then the bias and the clamp. -/
def edge1 {a k n : Nat} (s o : Mat a k) (ew : Mat a 1) (wt wb : Mat k n) (b : Mat 1 n) : Mat a n :=
  fun j => max (((∑ c : Fin k, (s (ix2 (j 0) c) * ew (ix2 (j 0) (0 : Fin 1))) * wt (ix2 c (j 1)))
      + ∑ c : Fin k, (o (ix2 (j 0) c) * ew (ix2 (j 0) (0 : Fin 1))) * wb (ix2 c (j 1)))
      + b (ix2 (0 : Fin 1) (j 1))) zeroF

theorem edge1_apply {a k n : Nat} (s o : Mat a k) (ew : Mat a 1) (wt wb : Mat k n) (b : Mat 1 n) (p : Fin a) (q : Fin n) :
    edge1 s o ew wt wb b (ix2 p q)
      = max (((∑ c : Fin k, (s (ix2 p c) * ew (ix2 p (0 : Fin 1))) * wt (ix2 c q))
          + ∑ c : Fin k, (o (ix2 p c) * ew (ix2 p (0 : Fin 1))) * wb (ix2 c q))
          + b (ix2 (0 : Fin 1) q)) zeroF := rfl

/-- A matrix with its two axes exchanged. -/
def tr {a b : Nat} (w : Mat a b) : Mat b a := fun j => w (ix2 (j 1) (j 0))
/-- A vector laid as a one-row matrix. -/
def rowOf {n : Nat} (v : (⟨1, ![n]⟩ : Shape).Idx → EReal) : Mat 1 n := fun j => v (ix1 (j 1))
/-- A vector laid as a one-column matrix. -/
def colOf {n : Nat} (v : (⟨1, ![n]⟩ : Shape).Idx → EReal) : Mat n 1 := fun j => v (ix1 (j 0))
/-- The left n columns of a matrix of n + n columns. -/
def leftCols {a n n2 : Nat} (h : n2 = n + n) (x : Mat a n2) : Mat a n :=
  fun j => x (ix2 (j 0) ⟨(j 1).val, by have := idx2_lt1 j; omega⟩)
/-- The right n columns of a matrix of n + n columns. -/
def rightCols {a n n2 : Nat} (h : n2 = n + n) (x : Mat a n2) : Mat a n :=
  fun j => x (ix2 (j 0) ⟨n + (j 1).val, by have := idx2_lt1 j; omega⟩)

/-- Each row divided by its count, the count clamped below at one. -/
def meanRows {a k : Nat} (p : Mat a k) (cnt : Mat a 1) : Mat a k :=
  fun j => Ideal.div (p j) (max (cnt (ix2 (j 0) (0 : Fin 1))) oneF)

theorem meanRows_apply {a k : Nat} (p : Mat a k) (cnt : Mat a 1) (r : Fin a) (c : Fin k) :
    meanRows p cnt (ix2 r c) = Ideal.div (p (ix2 r c)) (max (cnt (ix2 r (0 : Fin 1))) oneF) := rfl

/-- The top k rows of a weight of k + k rows. -/
def topRows {k n2 n : Nat} (h : n2 = k + k) (w : Mat n2 n) : Mat k n :=
  fun j => w (ix2 ⟨(j 0).val, by have := idx2_lt0 j; omega⟩ (j 1))
/-- The bottom k rows of a weight of k + k rows. -/
def botRows {k n2 n : Nat} (h : n2 = k + k) (w : Mat n2 n) : Mat k n :=
  fun j => w (ix2 ⟨k + (j 0).val, by have := idx2_lt0 j; omega⟩ (j 1))

/-- The joined rows are two rows of 512. -/
theorem two512 : (1024 : Nat) = 512 + 512 := rfl

/-- A sum over k + k positions is the sum over the first k plus the sum over the last k. -/
theorem sum_halves {M : Type} [AddCommMonoid M] {k n2 : Nat} (h : n2 = k + k) (f : Fin n2 → M) :
    ∑ c : Fin n2, f c
      = (∑ c : Fin k, f ⟨c.val, by have := c.isLt; omega⟩) + ∑ c : Fin k, f ⟨k + c.val, by have := c.isLt; omega⟩ := by
  subst h
  rw [Fin.sum_univ_add]
  rfl

/-- The law joining the two arrangements of the first layer: if row p of `feat` is the source row followed by the
    object row, each entry scaled by the edge's weight, then the layer of `feat` against the whole weight is the
    two-product layer against the weight's top and bottom halves. -/
theorem dense_joined {a k n2 n : Nat} (h : n2 = k + k) (feat : Mat a n2) (s o : Mat a k) (ew : Mat a 1)
    (w : Mat n2 n) (b : Mat 1 n)
    (hs : ∀ (p : Fin a) (c : Fin k), feat (ix2 p ⟨c.val, by have := c.isLt; omega⟩) = s (ix2 p c) * ew (ix2 p (0 : Fin 1)))
    (ho : ∀ (p : Fin a) (c : Fin k), feat (ix2 p ⟨k + c.val, by have := c.isLt; omega⟩) = o (ix2 p c) * ew (ix2 p (0 : Fin 1))) :
    dense feat w b = edge1 s o ew (topRows h w) (botRows h w) b := by
  funext j
  obtain ⟨p, q, rfl⟩ : ∃ (p : Fin a) (q : Fin n), j = ix2 p q := ⟨j 0, j 1, eq_ix2 j⟩
  rw [dense_apply, edge1_apply, sum_halves h]
  simp only [hs, ho]
  rfl

/-- A layer's entry (p, q) reads row p of its left operand only. -/
theorem dense_row {a a' k n : Nat} (x : Mat a k) (x' : Mat a' k) (w : Mat k n) (b : Mat 1 n) (p : Fin a) (p' : Fin a')
    (q : Fin n) (hx : ∀ c, x (ix2 p c) = x' (ix2 p' c)) : dense x w b (ix2 p q) = dense x' w b (ix2 p' q) := by
  rw [dense_apply, dense_apply]
  simp only [hx]

/-- The two-product layer's entry (p, q) reads row p of the two row arrays and of the edge weights only. -/
theorem edge1_row {a a' k n : Nat} (s o : Mat a k) (ew : Mat a 1) (s' o' : Mat a' k) (ew' : Mat a' 1)
    (wt wb : Mat k n) (b : Mat 1 n) (p : Fin a) (p' : Fin a') (q : Fin n)
    (hs : ∀ c, s (ix2 p c) = s' (ix2 p' c)) (ho : ∀ c, o (ix2 p c) = o' (ix2 p' c))
    (he : ew (ix2 p (0 : Fin 1)) = ew' (ix2 p' (0 : Fin 1))) :
    edge1 s o ew wt wb b (ix2 p q) = edge1 s' o' ew' wt wb b (ix2 p' q) := by
  rw [edge1_apply, edge1_apply]
  simp only [hs, ho, he]

/-- The row means' entry (r, c) reads row r of the sums and of the counts only. -/
theorem meanRows_row {a a' k : Nat} (p : Mat a k) (cnt : Mat a 1) (p' : Mat a' k) (cnt' : Mat a' 1) (r : Fin a) (r' : Fin a')
    (c : Fin k) (hp : p (ix2 r c) = p' (ix2 r' c)) (hc : cnt (ix2 r (0 : Fin 1)) = cnt' (ix2 r' (0 : Fin 1))) :
    meanRows p cnt (ix2 r c) = meanRows p' cnt' (ix2 r' c) := by
  rw [meanRows_apply, meanRows_apply, hp, hc]

end Cert.Layers

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.KernelHost.lean ====
/-
  The host operations around the two regions, read back.

  Before the edge region @main joins the embeddings and the noise columns, turns negative endpoint numbers into
  numbers from the end, gathers the source and the object row of every edge, and lays out the weights: the two
  halves of the first weight transposed, the second weight transposed, each bias as a one-row matrix. Between the
  regions it adds the edge region's two outputs into the nodes' rows by the same endpoint numbers, counts the
  endpoints per node, and lays out the node stage's weights. Each of these arrays is the same operations applied to
  the same launch arrays as in the reference program (a change of float format being the identity on extended
  reals), or one of the plain re-layings of the specification: a transposed matrix, its top or bottom rows, a vector
  as a row or as a column.
-/
import proofs.«146360_j67980742361871_2_alg».proof.Proof.Gen.KernelIdeal.Frame
import proofs.«146360_j67980742361871_2_alg».proof.Proof.Gen.ReferenceIdeal.Read
import proofs.«146360_j67980742361871_2_alg».proof.Proof.Layers
import proofs.«146360_j67980742361871_2_alg».proof.Proof.LibKeepdims
import Idealize.ShloMosaic.Lib.StableHlo.Run
import Idealize.ShloMosaic.Lib.ValueLayout
import Idealize.ShloMosaic.PureOps.Ideal

set_option maxRecDepth 16384
set_option maxHeartbeats 4000000

noncomputable section

namespace Cert.KernelHost

open Idealize.ShloMosaic Idealize.ShloMosaic.TcCoe Idealize.SL.Sem Idealize.ShloMosaic.StableHlo Idealize.ShloMosaic.ValueIdx
open Cert.KernelIdeal Cert.KernelIdeal.Gen Cert.Layers

variable (m : (ℓ : Loc nD τ sig) → Buf (Elt Ideal) ℓ) (ρ : Dev nD → PrngReg) (c : Dev nD)

/-! ## Which buffer each window stages -/

theorem win0_0 : Pipeline.arrRef spec0 0 = main_v12 := rfl
theorem win0_1 : Pipeline.arrRef spec0 1 = main_v19 := rfl
theorem win0_2 : Pipeline.arrRef spec0 2 = main_arg1 := rfl
theorem win0_3 : Pipeline.arrRef spec0 3 = main_v22 := rfl
theorem win0_4 : Pipeline.arrRef spec0 4 = main_v25 := rfl
theorem win0_5 : Pipeline.arrRef spec0 5 = main_v26 := rfl
theorem win0_6 : Pipeline.arrRef spec0 6 = main_v28 := rfl
theorem win0_7 : Pipeline.arrRef spec0 7 = main_v29 := rfl
theorem win0_8 : Pipeline.arrRef spec0 8 = main_v30_0 := rfl
theorem win0_9 : Pipeline.arrRef spec0 9 = main_v30_1 := rfl
theorem win1_0 : Pipeline.arrRef spec1 0 = main_v45 := rfl
theorem win1_1 : Pipeline.arrRef spec1 1 = main_v62 := rfl
theorem win1_2 : Pipeline.arrRef spec1 2 = main_v64 := rfl
theorem win1_3 : Pipeline.arrRef spec1 3 = main_v65 := rfl
theorem win1_4 : Pipeline.arrRef spec1 4 = main_v67 := rfl
theorem win1_5 : Pipeline.arrRef spec1 5 = main_v68 := rfl
theorem win1_6 : Pipeline.arrRef spec1 6 = main_v69 := rfl

/-! ## The edge region's entry contents -/

/-- The gathered source rows are the reference's gathered source rows of the same launch arrays. -/
theorem entry0_src : W1 (F := Ideal) m ρ c (Proc.devRef .tc main_v12)
    = Cert.ReferenceIdeal.Read.val_main_v11 (F := Ideal) (m ((c : Thread nD τ).loc main_arg0)) (m ((c : Thread nD τ).loc main_arg2)) (m ((c : Thread nD τ).loc main_arg3)) := by
  show StableHlo.after hostOps0 (W0 m ρ c) (Proc.devRef .tc main_v12) = _
  after_results_simp <;> rfl

/-- The gathered object rows likewise. -/
theorem entry0_obj : W1 (F := Ideal) m ρ c (Proc.devRef .tc main_v19)
    = Cert.ReferenceIdeal.Read.val_main_v18 (F := Ideal) (m ((c : Thread nD τ).loc main_arg0)) (m ((c : Thread nD τ).loc main_arg2)) (m ((c : Thread nD τ).loc main_arg3)) := by
  show StableHlo.after hostOps0 (W0 m ρ c) (Proc.devRef .tc main_v19) = _
  after_results_simp <;> rfl

/-- The edge weights are as launched. -/
theorem entry0_ew : W1 (F := Ideal) m ρ c (Proc.devRef .tc main_arg1) = (m ((c : Thread nD τ).loc main_arg1)) := by
  show StableHlo.after hostOps0 (W0 m ρ c) (Proc.devRef .tc main_arg1) = _
  after_results_simp <;> rfl

/-- The first weight's left 512 columns, transposed: the top 512 rows of the transposed weight. -/
theorem entry0_top : (W1 (F := Ideal) m ρ c (Proc.devRef .tc main_v22) : Mat 512 512)
    = topRows two512 (tr ((m ((c : Thread nD τ).loc main_arg4)) : Mat 512 1024)) := by
  show StableHlo.after hostOps0 (W0 m ρ c) (Proc.devRef .tc main_v22) = _
  after_results_simp
  funext j
  obtain ⟨k, h, rfl⟩ : ∃ (k : Fin 512) (h : Fin 512), j = ix2 k h := ⟨j 0, j 1, eq_ix2 j⟩
  show transpose S512x512 [1, 0] (extractStridedSlice S512x512 ![0, 0] (m ((c : Thread nD τ).loc main_arg4)) slices_S512x1024_S512x512_0_0)
      transposes_S512x512_S512x512_1_0 (ix2 k h) = (m ((c : Thread nD τ).loc main_arg4) : Mat 512 1024) (ix2 h (⟨k.val, by omega⟩ : Fin 1024))
  refine (transpose_ix2_apply _ transposes_S512x512_S512x512_1_0 k h).trans ?_
  exact slice2_axis1_apply 0 _ slices_S512x1024_S512x512_0_0 h k (⟨k.val, by omega⟩ : Fin 1024) (Nat.zero_add _).symm

/-- The first weight's right 512 columns, transposed: the bottom 512 rows of the transposed weight. -/
theorem entry0_bot : (W1 (F := Ideal) m ρ c (Proc.devRef .tc main_v25) : Mat 512 512)
    = botRows two512 (tr ((m ((c : Thread nD τ).loc main_arg4)) : Mat 512 1024)) := by
  show StableHlo.after hostOps0 (W0 m ρ c) (Proc.devRef .tc main_v25) = _
  after_results_simp
  funext j
  obtain ⟨k, h, rfl⟩ : ∃ (k : Fin 512) (h : Fin 512), j = ix2 k h := ⟨j 0, j 1, eq_ix2 j⟩
  show transpose S512x512 [1, 0] (extractStridedSlice S512x512 ![0, 512] (m ((c : Thread nD τ).loc main_arg4)) slices_S512x1024_S512x512_0_512)
      transposes_S512x512_S512x512_1_0 (ix2 k h) = (m ((c : Thread nD τ).loc main_arg4) : Mat 512 1024) (ix2 h (⟨512 + k.val, by omega⟩ : Fin 1024))
  refine (transpose_ix2_apply _ transposes_S512x512_S512x512_1_0 k h).trans ?_
  exact slice2_axis1_apply 512 _ slices_S512x1024_S512x512_0_512 h k (⟨512 + k.val, by omega⟩ : Fin 1024) rfl

/-- The first bias as a one-row matrix. -/
theorem entry0_b1 : (W1 (F := Ideal) m ρ c (Proc.devRef .tc main_v26) : Mat 1 512) = rowOf (m ((c : Thread nD τ).loc main_arg5)) := by
  show StableHlo.after hostOps0 (W0 m ρ c) (Proc.devRef .tc main_v26) = _
  after_results_simp
  funext j
  obtain ⟨u, i, rfl⟩ : ∃ (u : Fin 1) (i : Fin 512), j = ix2 u i := ⟨j 0, j 1, eq_ix2 j⟩
  exact shapeCast_a_1a_apply _ _ u i

/-- The second weight transposed. -/
theorem entry0_w2 : (W1 (F := Ideal) m ρ c (Proc.devRef .tc main_v28) : Mat 512 1024) = tr ((m ((c : Thread nD τ).loc main_arg6)) : Mat 1024 512) := by
  show StableHlo.after hostOps0 (W0 m ρ c) (Proc.devRef .tc main_v28) = _
  after_results_simp
  funext j
  obtain ⟨h, q, rfl⟩ : ∃ (h : Fin 512) (q : Fin 1024), j = ix2 h q := ⟨j 0, j 1, eq_ix2 j⟩
  exact transpose_ix2_apply _ _ h q

/-- The second bias as a one-row matrix. -/
theorem entry0_b2 : (W1 (F := Ideal) m ρ c (Proc.devRef .tc main_v29) : Mat 1 1024) = rowOf (m ((c : Thread nD τ).loc main_arg7)) := by
  show StableHlo.after hostOps0 (W0 m ρ c) (Proc.devRef .tc main_v29) = _
  after_results_simp
  funext j
  obtain ⟨u, i, rfl⟩ : ∃ (u : Fin 1) (i : Fin 1024), j = ix2 u i := ⟨j 0, j 1, eq_ix2 j⟩
  exact shapeCast_a_1a_apply _ _ u i

/-! ## Buffers the edge region does not touch, read at its exit -/

/-- The source endpoint numbers, computed before the edge region and used again after it. -/
theorem exit0_srcIdx : W2 (F := Ideal) m ρ c (Proc.devRef .tc main_v3)
    = Cert.ReferenceIdeal.Read.val_main_v2 (F := Ideal) (m ((c : Thread nD τ).loc main_arg2)) := by
  refine (W2_of_ne m ρ c main_v3 (by decide)).trans ?_
  show StableHlo.after hostOps0 (W0 m ρ c) (Proc.devRef .tc main_v3) = _
  after_results_simp <;> rfl

/-- The object endpoint numbers likewise. -/
theorem exit0_objIdx : W2 (F := Ideal) m ρ c (Proc.devRef .tc main_v5)
    = Cert.ReferenceIdeal.Read.val_main_v4 (F := Ideal) (m ((c : Thread nD τ).loc main_arg2)) := by
  refine (W2_of_ne m ρ c main_v5 (by decide)).trans ?_
  show StableHlo.after hostOps0 (W0 m ρ c) (Proc.devRef .tc main_v5) = _
  after_results_simp <;> rfl

theorem exit0_arg8 : W2 (F := Ideal) m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results_simp <;> rfl
theorem exit0_arg9 : W2 (F := Ideal) m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results_simp <;> rfl
theorem exit0_arg10 : W2 (F := Ideal) m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results_simp <;> rfl
theorem exit0_arg11 : W2 (F := Ideal) m ρ c (Proc.devRef .tc main_arg11) = (m ((c : Thread nD τ).loc main_arg11)) := by
  refine (W2_of_ne m ρ c main_arg11 (by decide)).trans ?_
  show StableHlo.after hostOps0 (W0 m ρ c) (Proc.devRef .tc main_arg11) = _
  after_results_simp <;> rfl

/-! ## The node region's entry contents -/

/-- The pooled sums: if the edge region left the reference's two halves in its two outputs, the two scatter-adds
    into the zero array are the reference's, operation by operation. -/
theorem entry1_pool (x0 x1 x2 x3 x4 x5 x6 x7)
    (hx2 : x2 = (m ((c : Thread nD τ).loc main_arg2)))
    (hs : W2 (F := Ideal) m ρ c (Proc.devRef .tc main_v30_0) = Cert.ReferenceIdeal.Read.val_main_v34 (F := Ideal) x0 x1 x2 x3 x4 x5 x6 x7)
    (ho : W2 (F := Ideal) m ρ c (Proc.devRef .tc main_v30_1) = Cert.ReferenceIdeal.Read.val_main_v35 (F := Ideal) x0 x1 x2 x3 x4 x5 x6 x7) :
    W3 (F := Ideal) m ρ c (Proc.devRef .tc main_v45) = Cert.ReferenceIdeal.Read.val_main_v50 (F := Ideal) x0 x1 x2 x3 x4 x5 x6 x7 := by
  show StableHlo.after hostOps1 (W2 m ρ c) (Proc.devRef .tc main_v45) = _
  after_results_simp
  rw [exit0_srcIdx, exit0_objIdx, hs, ho, ← hx2]
  rfl

/-- The endpoint counts, as a column. -/
theorem entry1_cnt : (W3 (F := Ideal) m ρ c (Proc.devRef .tc main_v62) : Mat 50000 1)
    = colOf (Cert.ReferenceIdeal.Read.val_main_v66 (F := Ideal) (m ((c : Thread nD τ).loc main_arg2))) := by
  show StableHlo.after hostOps1 (W2 m ρ c) (Proc.devRef .tc main_v62) = _
  after_results_simp
  rw [exit0_srcIdx, exit0_objIdx]
  funext j
  obtain ⟨i, u, rfl⟩ : ∃ (i : Fin 50000) (u : Fin 1), j = ix2 i u := ⟨j 0, j 1, eq_ix2 j⟩
  exact Cert.LibKeepdims.shapeCast_a_a1_apply _ _ i u

/-- The node stage's first weight transposed. -/
theorem entry1_w1 : (W3 (F := Ideal) m ρ c (Proc.devRef .tc main_v64) : Mat 512 512) = tr ((m ((c : Thread nD τ).loc main_arg8)) : Mat 512 512) := by
  show StableHlo.after hostOps1 (W2 m ρ c) (Proc.devRef .tc main_v64) = _
  after_results_simp
  rw [exit0_arg8]
  funext j
  obtain ⟨h, q, rfl⟩ : ∃ (h : Fin 512) (q : Fin 512), j = ix2 h q := ⟨j 0, j 1, eq_ix2 j⟩
  exact transpose_ix2_apply _ _ h q

/-- Its first bias as a one-row matrix. -/
theorem entry1_b1 : (W3 (F := Ideal) m ρ c (Proc.devRef .tc main_v65) : Mat 1 512) = rowOf (m ((c : Thread nD τ).loc main_arg9)) := by
  show StableHlo.after hostOps1 (W2 m ρ c) (Proc.devRef .tc main_v65) = _
  after_results_simp
  rw [exit0_arg9]
  funext j
  obtain ⟨u, i, rfl⟩ : ∃ (u : Fin 1) (i : Fin 512), j = ix2 u i := ⟨j 0, j 1, eq_ix2 j⟩
  exact shapeCast_a_1a_apply _ _ u i

/-- Its second weight transposed. -/
theorem entry1_w2 : (W3 (F := Ideal) m ρ c (Proc.devRef .tc main_v67) : Mat 512 512) = tr ((m ((c : Thread nD τ).loc main_arg10)) : Mat 512 512) := by
  show StableHlo.after hostOps1 (W2 m ρ c) (Proc.devRef .tc main_v67) = _
  after_results_simp
  rw [exit0_arg10]
  funext j
  obtain ⟨h, q, rfl⟩ : ∃ (h : Fin 512) (q : Fin 512), j = ix2 h q := ⟨j 0, j 1, eq_ix2 j⟩
  exact transpose_ix2_apply _ _ h q

/-- Its second bias as a one-row matrix. -/
theorem entry1_b2 : (W3 (F := Ideal) m ρ c (Proc.devRef .tc main_v68) : Mat 1 512) = rowOf (m ((c : Thread nD τ).loc main_arg11)) := by
  show StableHlo.after hostOps1 (W2 m ρ c) (Proc.devRef .tc main_v68) = _
  after_results_simp
  rw [exit0_arg11]
  funext j
  obtain ⟨u, i, rfl⟩ : ∃ (u : Fin 1) (i : Fin 512), j = ix2 u i := ⟨j 0, j 1, eq_ix2 j⟩
  exact shapeCast_a_1a_apply _ _ u i

end Cert.KernelHost

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.EdgeBody.lean ====
/-
  One block of 800 edges through the edge stage, read entry by entry.

  The body works on whole blocks: the source rows and the object rows of 800 edges (800 × 512 each), the edges'
  weights (an 800 × 1 column), two 512 × 512 weights, a bias row of 512, a 512 × 1024 weight and a bias row of 1024.
  Each source row and each object row is scaled by its edge's weight; the two scaled blocks are multiplied against the
  two square weights, the products added, the bias row added and the result clamped below at zero: that is the
  two-product first layer. The hidden block is multiplied against the wide weight, the second bias row added and the
  result clamped again: that is a plain layer of 1024 columns. Its left 512 columns are stored as the first output
  block, its right 512 columns as the second. Changes of float format are the identity on extended reals, each product
  into the zero accumulator is the sum over the shared axis, and a column (or a row) repeated along the other axis
  reads its one entry of that row (or column); so entry (p, q) of the first output block is entry (p, q) of the two
  layers, and entry (p, q) of the second is entry (p, 512 + q).
-/
import proofs.«146360_j67980742361871_2_alg».proof.Proof.Gen.KernelIdeal.Frame
import proofs.«146360_j67980742361871_2_alg».proof.Proof.Layers
import proofs.«146360_j67980742361871_2_alg».proof.Proof.LibPlainMatmul
import proofs.«146360_j67980742361871_2_alg».proof.Proof.LibKeepdims

noncomputable section

namespace Cert.EdgeBody

open Cert.KernelIdeal Cert.KernelIdeal.Gen Cert.Layers Idealize.ShloMosaic Idealize.ShloMosaic.ValueIdx
open scoped BigOperators

/-- The zero offsets of a whole-block access, as a constant function. -/
theorem hz : (![0, 0] : Fin 2 → Nat) = fun _ => 0 := funext fun a => by fin_cases a <;> rfl

/-- A source or object row scaled by its edge's weight: the block widened, multiplied by the weight column repeated
    along the row, and narrowed again, reads at (p, c) the entry times the weight of row p. -/
theorem scaled_apply (x : FVec Ideal S800x512 .bf16) (w : FVec Ideal S800x1 .f32) (hb : FTy.bits .bf16 < FTy.bits .f32)
    (hbr : S800x1.Broadcasts S800x512) (p : Fin 800) (c : Fin 512) :
    (truncf .bf16 (mulf (extf .f32 x hb) (broadcastTo S800x512 w hbr)) hb : FVec Ideal S800x512 .bf16) (ix2 p c)
      = x (ix2 p c) * w (ix2 p (0 : Fin 1)) :=
  congrArg (x (ix2 p c) * ·) (Cert.LibKeepdims.broadcastTo_a1_ab_apply w hbr p c)

/-- The value before the two halves are cut apart: entry (p, q) of the block of 1024 columns is entry (p, q) of the
    plain layer over the two-product layer of the input blocks. -/
theorem pay2_apply (v0 : Vec Ideal S800x1 .f32) (v1 v4 : Vec Ideal S800x512 .bf16) (v13 v15 : Vec Ideal S512x512 .bf16)
    (v20 : Vec Ideal S1x512 .f32) (v27 : Vec Ideal S512x1024 .bf16) (v30 : Vec Ideal S1x1024 .f32) (p : Fin 800) (q : Fin 1024) :
    k0_pay2 (F := Ideal) v0 v1 v4 v13 v15 v20 v27 v30 (ix2 p q) = dense (edge1 v1 v4 v0 v13 v15 v20) v27 v30 (ix2 p q) := by
  unfold k0_pay2
  simp only [shapeCast_self]
  refine Eq.trans ?_ (dense_apply (edge1 v1 v4 v0 v13 v15 v20) v27 v30 p q).symm
  refine (maximumf_apply _ _ _).trans ?_
  refine congrArg₂ max ?_ rfl
  refine (addf_apply _ _ _).trans ?_
  refine congrArg₂ (· + ·) ?_ (broadcastTo_1b_ab_apply v30 _ p q)
  refine (Cert.LibPlainMatmul.matmul_zero_plain (φ₁ := .bf16) (φ₂ := .bf16) _ _ _ p q).trans ?_
  refine Finset.sum_congr rfl fun c _ => congrArg (· * v27 (ix2 c q)) ?_
  refine Eq.trans ?_ (edge1_apply v1 v4 v0 v13 v15 v20 p c).symm
  refine (truncf_apply (φ := .f32) (ψ := .bf16) _ _ _).trans ?_
  refine (maximumf_apply _ _ _).trans ?_
  refine congrArg₂ max ?_ rfl
  refine (addf_apply _ _ _).trans ?_
  refine congrArg₂ (· + ·) ?_ (broadcastTo_1b_ab_apply v20 _ p c)
  refine (addf_apply _ _ _).trans ?_
  refine congrArg₂ (· + ·) ?_ ?_
  · refine (Cert.LibPlainMatmul.matmul_zero_plain (φ₁ := .bf16) (φ₂ := .bf16) _ _ _ p c).trans ?_
    exact Finset.sum_congr rfl fun c' _ => congrArg (· * v13 (ix2 c' c)) (scaled_apply v1 v0 _ _ p c')
  · refine (Cert.LibPlainMatmul.matmul_zero_plain (φ₁ := .bf16) (φ₂ := .bf16) _ _ _ p c).trans ?_
    exact Finset.sum_congr rfl fun c' _ => congrArg (· * v15 (ix2 c' c)) (scaled_apply v4 v0 _ _ p c')

/-- The one store of the first output block covers it, so the block holds the stored value: the left half of the
    second layer of the whole input blocks. -/
theorem out0_8_eq (x0 x1 : Vec Ideal S800x512 .bf16) (x2 : Vec Ideal S800x1 .f32) (x3 x4 : Vec Ideal S512x512 .bf16)
    (x5 : Vec Ideal S1x512 .f32) (x6 : Vec Ideal S512x1024 .bf16) (x7 : Vec Ideal S1x1024 .f32) :
    out0_8 (F := Ideal) x0 x1 x2 x3 x4 x5 x6 x7 = k0_pay3 x2 x0 x1 x3 x4 x5 x6 x7 := by
  unfold out0_8
  rw [View.canon_unit_zero hz]
  simp only [View.ld_unit_zero (S := S800x1) hz, View.ld_unit_zero (S := S800x512) hz, View.ld_unit_zero (S := S512x512) hz,
    View.ld_unit_zero (S := S1x512) hz, View.ld_unit_zero (S := S512x1024) hz, View.ld_unit_zero (S := S1x1024) hz]

/-- The same for the second output block: the right half. -/
theorem out0_9_eq (x0 x1 : Vec Ideal S800x512 .bf16) (x2 : Vec Ideal S800x1 .f32) (x3 x4 : Vec Ideal S512x512 .bf16)
    (x5 : Vec Ideal S1x512 .f32) (x6 : Vec Ideal S512x1024 .bf16) (x7 : Vec Ideal S1x1024 .f32) :
    out0_9 (F := Ideal) x0 x1 x2 x3 x4 x5 x6 x7 = k0_pay1 (k0_pay2 x2 x0 x1 x3 x4 x5 x6 x7) := by
  unfold out0_9
  rw [View.canon_unit_zero hz]
  simp only [View.ld_unit_zero (S := S800x1) hz, View.ld_unit_zero (S := S800x512) hz, View.ld_unit_zero (S := S512x512) hz,
    View.ld_unit_zero (S := S1x512) hz, View.ld_unit_zero (S := S512x1024) hz, View.ld_unit_zero (S := S1x1024) hz]

/-- Entry (p, q) of the first output block is entry (p, q) of the two layers of the input blocks. -/
theorem out0_8_apply (x0 x1 : Vec Ideal S800x512 .bf16) (x2 : Vec Ideal S800x1 .f32) (x3 x4 : Vec Ideal S512x512 .bf16)
    (x5 : Vec Ideal S1x512 .f32) (x6 : Vec Ideal S512x1024 .bf16) (x7 : Vec Ideal S1x1024 .f32) (p : Fin 800) (q : Fin 512) :
    out0_8 (F := Ideal) x0 x1 x2 x3 x4 x5 x6 x7 (ix2 p q)
      = dense (edge1 x0 x1 x2 x3 x4 x5) x6 x7 (ix2 p ⟨q.val, by have := q.isLt; omega⟩) := by
  rw [out0_8_eq]
  unfold k0_pay3
  refine (slice2_axis1_apply (n0 := 800) (n1 := 1024) (m := 512) 0 (k0_pay2 x2 x0 x1 x3 x4 x5 x6 x7) _ p q
    ⟨q.val, by have := q.isLt; omega⟩ (Nat.zero_add _).symm).trans ?_
  exact pay2_apply x2 x0 x1 x3 x4 x5 x6 x7 p _

/-- Entry (p, q) of the second output block is entry (p, 512 + q) of the two layers of the input blocks. -/
theorem out0_9_apply (x0 x1 : Vec Ideal S800x512 .bf16) (x2 : Vec Ideal S800x1 .f32) (x3 x4 : Vec Ideal S512x512 .bf16)
    (x5 : Vec Ideal S1x512 .f32) (x6 : Vec Ideal S512x1024 .bf16) (x7 : Vec Ideal S1x1024 .f32) (p : Fin 800) (q : Fin 512) :
    out0_9 (F := Ideal) x0 x1 x2 x3 x4 x5 x6 x7 (ix2 p q)
      = dense (edge1 x0 x1 x2 x3 x4 x5) x6 x7 (ix2 p ⟨512 + q.val, by have := q.isLt; omega⟩) := by
  rw [out0_9_eq]
  unfold k0_pay1
  refine (slice2_axis1_apply (n0 := 800) (n1 := 1024) (m := 512) 512 (k0_pay2 x2 x0 x1 x3 x4 x5 x6 x7) _ p q
    ⟨512 + q.val, by have := q.isLt; omega⟩ rfl).trans ?_
  exact pay2_apply x2 x0 x1 x3 x4 x5 x6 x7 p _

end Cert.EdgeBody

end
-- ==== Proof.EdgeRegion.lean ====
/-
  The edge stage over all 100000 edges: the two output arrays after the last block.

  The stage runs over 125 blocks of 800 edges. Block t of the source rows, of the object rows and of the edge weights is
  rows 800 t … 800 t + 799 of its array (a block's coordinate in its array is the block's position times the block's
  extent plus the coordinate inside the block, and the position of these blocks is (t, 0)); the two square weights, the
  wide weight and the two bias rows are staged whole at every block (position (0, 0)). Every entry of the two layers
  depends on one row of the three row arrays only, so row p of the layers of block t is row 800 t + p of the layers of
  the whole arrays. Block t of the first output array receives the left 512 columns of that block's layers and block t
  of the second the right 512 columns, at rows 800 t … 800 t + 799 again. Row r lies in block r / 800, so the 125
  blocks cover each output array, and each array ends holding the left (the right) 512 columns of the two layers of the
  whole arrays.
-/
import proofs.«146360_j67980742361871_2_alg».proof.Proof.EdgeBody
import Idealize.ShloMosaic.Lib.Pipeline.Value

noncomputable section

namespace Cert.EdgeRegion

open Cert.KernelIdeal Cert.KernelIdeal.Gen Cert.Layers Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The arrays the region finds, as matrices -/

/-- Window w of the region stages the array `V c (Pipeline.arrRef spec0 w)`: the source rows, the object rows, the edge
    weights, the two square weights, the first bias row, the wide weight, the second bias row. -/
abbrev A0 (c : Dev nD) : Mat 100000 512 := V c (Pipeline.arrRef spec0 0)
abbrev A1 (c : Dev nD) : Mat 100000 512 := V c (Pipeline.arrRef spec0 1)
abbrev A2 (c : Dev nD) : Mat 100000 1 := V c (Pipeline.arrRef spec0 2)
abbrev A3 (c : Dev nD) : Mat 512 512 := V c (Pipeline.arrRef spec0 3)
abbrev A4 (c : Dev nD) : Mat 512 512 := V c (Pipeline.arrRef spec0 4)
abbrev A5 (c : Dev nD) : Mat 1 512 := V c (Pipeline.arrRef spec0 5)
abbrev A6 (c : Dev nD) : Mat 512 1024 := V c (Pipeline.arrRef spec0 6)
abbrev A7 (c : Dev nD) : Mat 1 1024 := V c (Pipeline.arrRef spec0 7)

/-- The two layers of all 100000 edges at once. -/
abbrev layers (c : Dev nD) : Mat 100000 1024 :=
  dense (edge1 (A0 V c) (A1 V c) (A2 V c) (A3 V c) (A4 V c) (A5 V c)) (A6 V c) (A7 V c)

/-- The positions of the row blocks, decided over the 125 points: block t of the source rows, the object rows, the edge
    weights and the two outputs sits at (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The positions of the weights' and bias rows' blocks, decided over the 125 points: always (0, 0). -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row p of the source rows' block at point t is row 800 t + p of the source rows. -/
theorem iblk_row0 (c : Dev nD) (t : Fin cfg0.N) (p : Fin 800) (cc : Fin 512) (r : Fin 100000) (hr : r.val = 800 * t.val + p.val) :
    (iblk0 V c 0 t : Mat 800 512) (ix2 p cc) = A0 V c (ix2 r cc) := by
  obtain ⟨e0, e1, -⟩ := idx_rows t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 800 + 1 * p.val = r.val; rw [e0, hr]; omega
  | ⟨1, _⟩ => show win0_0.index t (1 : Fin 2) * 512 + 1 * cc.val = cc.val; rw [e1]; omega

/-- Row p of the object rows' block at point t is row 800 t + p of the object rows. -/
theorem iblk_row1 (c : Dev nD) (t : Fin cfg0.N) (p : Fin 800) (cc : Fin 512) (r : Fin 100000) (hr : r.val = 800 * t.val + p.val) :
    (iblk0 V c 1 t : Mat 800 512) (ix2 p cc) = A1 V c (ix2 r cc) := by
  obtain ⟨-, -, e0, e1, -⟩ := idx_rows t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 800 + 1 * p.val = r.val; rw [e0, hr]; omega
  | ⟨1, _⟩ => show win0_1.index t (1 : Fin 2) * 512 + 1 * cc.val = cc.val; rw [e1]; omega

/-- Entry p of the edge weights' block at point t is entry 800 t + p of the edge weights. -/
theorem iblk_row2 (c : Dev nD) (t : Fin cfg0.N) (p : Fin 800) (r : Fin 100000) (hr : r.val = 800 * t.val + p.val) :
    (iblk0 V c 2 t : Mat 800 1) (ix2 p (0 : Fin 1)) = A2 V c (ix2 r (0 : Fin 1)) := by
  obtain ⟨-, -, -, -, e0, e1, -⟩ := idx_rows t
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 800 + 1 * p.val = r.val; rw [e0, hr]; omega
  | ⟨1, _⟩ => show win0_2.index t (1 : Fin 2) * 1 + 1 * 0 = 0; rw [e1]

/-- The first square weight's block at any point is the whole weight. -/
theorem iblk_whole3 (c : Dev nD) (t : Fin cfg0.N) : (iblk0 V c 3 t : Mat 512 512) = A3 V c := by
  obtain ⟨e0, e1, -⟩ := idx_whole t
  unfold iblk0
  funext j
  rw [View.read_apply]
  show V c (Pipeline.arrRef spec0 3) _ = V c (Pipeline.arrRef spec0 3) j
  refine congrArg _ (funext fun a => Fin.ext ?_)
  match a with
  | ⟨0, _⟩ => show win0_3.index t (0 : Fin 2) * 512 + 1 * (j 0).val = (j 0).val; rw [e0]; omega
  | ⟨1, _⟩ => show win0_3.index t (1 : Fin 2) * 512 + 1 * (j 1).val = (j 1).val; rw [e1]; omega

/-- The second square weight's block at any point is the whole weight. -/
theorem iblk_whole4 (c : Dev nD) (t : Fin cfg0.N) : (iblk0 V c 4 t : Mat 512 512) = A4 V c := by
  obtain ⟨-, -, e0, e1, -⟩ := idx_whole t
  unfold iblk0
  funext j
  rw [View.read_apply]
  show V c (Pipeline.arrRef spec0 4) _ = V c (Pipeline.arrRef spec0 4) j
  refine congrArg _ (funext fun a => Fin.ext ?_)
  match a with
  | ⟨0, _⟩ => show win0_4.index t (0 : Fin 2) * 512 + 1 * (j 0).val = (j 0).val; rw [e0]; omega
  | ⟨1, _⟩ => show win0_4.index t (1 : Fin 2) * 512 + 1 * (j 1).val = (j 1).val; rw [e1]; omega

/-- The first bias row's block at any point is the whole row. -/
theorem iblk_whole5 (c : Dev nD) (t : Fin cfg0.N) : (iblk0 V c 5 t : Mat 1 512) = A5 V c := by
  obtain ⟨-, -, -, -, e0, e1, -⟩ := idx_whole t
  unfold iblk0
  funext j
  rw [View.read_apply]
  show V c (Pipeline.arrRef spec0 5) _ = V c (Pipeline.arrRef spec0 5) j
  refine congrArg _ (funext fun a => Fin.ext ?_)
  match a with
  | ⟨0, _⟩ => show win0_5.index t (0 : Fin 2) * 1 + 1 * (j 0).val = (j 0).val; rw [e0]; omega
  | ⟨1, _⟩ => show win0_5.index t (1 : Fin 2) * 512 + 1 * (j 1).val = (j 1).val; rw [e1]; omega

/-- The wide weight's block at any point is the whole weight. -/
theorem iblk_whole6 (c : Dev nD) (t : Fin cfg0.N) : (iblk0 V c 6 t : Mat 512 1024) = A6 V c := by
  obtain ⟨-, -, -, -, -, -, e0, e1, -⟩ := idx_whole t
  unfold iblk0
  funext j
  rw [View.read_apply]
  show V c (Pipeline.arrRef spec0 6) _ = V c (Pipeline.arrRef spec0 6) j
  refine congrArg _ (funext fun a => Fin.ext ?_)
  match a with
  | ⟨0, _⟩ => show win0_6.index t (0 : Fin 2) * 512 + 1 * (j 0).val = (j 0).val; rw [e0]; omega
  | ⟨1, _⟩ => show win0_6.index t (1 : Fin 2) * 1024 + 1 * (j 1).val = (j 1).val; rw [e1]; omega

/-- The second bias row's block at any point is the whole row. -/
theorem iblk_whole7 (c : Dev nD) (t : Fin cfg0.N) : (iblk0 V c 7 t : Mat 1 1024) = A7 V c := by
  obtain ⟨-, -, -, -, -, -, -, -, e0, e1⟩ := idx_whole t
  unfold iblk0
  funext j
  rw [View.read_apply]
  show V c (Pipeline.arrRef spec0 7) _ = V c (Pipeline.arrRef spec0 7) j
  refine congrArg _ (funext fun a => Fin.ext ?_)
  match a with
  | ⟨0, _⟩ => show win0_7.index t (0 : Fin 2) * 1 + 1 * (j 0).val = (j 0).val; rw [e0]; omega
  | ⟨1, _⟩ => show win0_7.index t (1 : Fin 2) * 1024 + 1 * (j 1).val = (j 1).val; rw [e1]; omega

/-- Row p of a block's two layers is row r of the whole arrays' two layers, once row p of each row block is row r of
    its array and the weights and bias rows are the arrays themselves. -/
theorem block_row (a0 a1 : Mat 100000 512) (a2 : Mat 100000 1) (a3 a4 : Mat 512 512) (a5 : Mat 1 512) (a6 : Mat 512 1024)
    (a7 : Mat 1 1024) (x0 x1 : Mat 800 512) (x2 : Mat 800 1) (x3 x4 : Mat 512 512) (x5 : Mat 1 512) (x6 : Mat 512 1024)
    (x7 : Mat 1 1024) (p : Fin 800) (r : Fin 100000)
    (h0 : ∀ cc, x0 (ix2 p cc) = a0 (ix2 r cc)) (h1 : ∀ cc, x1 (ix2 p cc) = a1 (ix2 r cc))
    (h2 : x2 (ix2 p (0 : Fin 1)) = a2 (ix2 r (0 : Fin 1)))
    (h3 : x3 = a3) (h4 : x4 = a4) (h5 : x5 = a5) (h6 : x6 = a6) (h7 : x7 = a7) (q : Fin 1024) :
    dense (edge1 x0 x1 x2 x3 x4 x5) x6 x7 (ix2 p q) = dense (edge1 a0 a1 a2 a3 a4 a5) a6 a7 (ix2 r q) := by
  subst h3 h4 h5 h6 h7
  exact dense_row _ _ _ _ p r q fun cc => edge1_row _ _ _ _ _ _ _ _ _ p r cc h0 h1 h2

/-- Row p of the two layers of the blocks at point t is row 800 t + p of the two layers of the arrays. -/
theorem point_row (c : Dev nD) (t : Fin cfg0.N) (p : Fin 800) (r : Fin 100000) (hr : r.val = 800 * t.val + p.val) (q : Fin 1024) :
    dense (edge1 (iblk0 V c 0 t : Mat 800 512) (iblk0 V c 1 t : Mat 800 512) (iblk0 V c 2 t : Mat 800 1)
        (iblk0 V c 3 t : Mat 512 512) (iblk0 V c 4 t : Mat 512 512) (iblk0 V c 5 t : Mat 1 512))
      (iblk0 V c 6 t : Mat 512 1024) (iblk0 V c 7 t : Mat 1 1024) (ix2 p q) = layers V c (ix2 r q) :=
  block_row (A0 V c) (A1 V c) (A2 V c) (A3 V c) (A4 V c) (A5 V c) (A6 V c) (A7 V c)
    (iblk0 V c 0 t) (iblk0 V c 1 t) (iblk0 V c 2 t) (iblk0 V c 3 t) (iblk0 V c 4 t) (iblk0 V c 5 t) (iblk0 V c 6 t) (iblk0 V c 7 t)
    p r (fun cc => iblk_row0 V c t p cc r hr) (fun cc => iblk_row1 V c t p cc r hr) (iblk_row2 V c t p r hr)
    (iblk_whole3 V c t) (iblk_whole4 V c t) (iblk_whole5 V c t) (iblk_whole6 V c t) (iblk_whole7 V c t) q

/-- The left columns read at an index whose coordinates are r and q. -/
theorem leftCols_at (X : Mat 100000 1024) (i : (⟨2, ![100000, 512]⟩ : Shape).Idx) (r : Fin 100000) (q : Fin 1024)
    (h0 : (i 0).val = r.val) (h1 : (i 1).val = q.val) : leftCols two512 X i = X (ix2 r q) := by
  unfold leftCols
  refine congrArg X (funext fun a => ?_)
  match a with
  | ⟨0, _⟩ => exact Fin.ext h0
  | ⟨1, _⟩ => exact Fin.ext h1

/-- The right columns read at an index whose coordinates are r and q − 512. -/
theorem rightCols_at (X : Mat 100000 1024) (i : (⟨2, ![100000, 512]⟩ : Shape).Idx) (r : Fin 100000) (q : Fin 1024)
    (h0 : (i 0).val = r.val) (h1 : 512 + (i 1).val = q.val) : rightCols two512 X i = X (ix2 r q) := by
  unfold rightCols
  refine congrArg X (funext fun a => ?_)
  match a with
  | ⟨0, _⟩ => exact Fin.ext h0
  | ⟨1, _⟩ => exact Fin.ext h1

/-- What point t writes back to the first output array is block t of the left 512 columns of the whole arrays' layers. -/
theorem flushed8_eq (c : Dev nD) (t : Fin cfg0.N) :
    (dat0 (F := Ideal) V c).flushed 8 t = ((cfg0.win 8).blk t).view.read (Elt Ideal) (leftCols two512 (layers V c)) := by
  show (cfg0.win 8).cut (grid0.coords t) ((dat0 V c).after 8 t) = _
  rw [after0_8]
  refine funext fun (j : S800x512.Idx) => ?_
  obtain ⟨p, q, rfl⟩ : ∃ (p : Fin 800) (q : Fin 512), j = ix2 p q := ⟨j 0, j 1, eq_ix2 j⟩
  obtain ⟨-, -, -, -, -, -, e0, e1, -⟩ := idx_rows t
  have ht : t.val < 125 := lt_of_lt_of_eq t.isLt N_0
  show out0_8 (F := Ideal) (iblk0 V c 0 t) (iblk0 V c 1 t) (iblk0 V c 2 t) (iblk0 V c 3 t) (iblk0 V c 4 t) (iblk0 V c 5 t)
      (iblk0 V c 6 t) (iblk0 V c 7 t) (ix2 p q) = leftCols two512 (layers V c) (((cfg0.win 8).blk t).view.emb (ix2 p q))
  refine (Cert.EdgeBody.out0_8_apply (iblk0 V c 0 t) (iblk0 V c 1 t) (iblk0 V c 2 t) (iblk0 V c 3 t) (iblk0 V c 4 t)
    (iblk0 V c 5 t) (iblk0 V c 6 t) (iblk0 V c 7 t) p q).trans ?_
  refine (point_row V c t p ⟨800 * t.val + p.val, by have := p.isLt; omega⟩ rfl _).trans ?_
  refine (leftCols_at (layers V c) _ _ _ ?_ ?_).symm
  · show win0_8.index t (0 : Fin 2) * 800 + 1 * p.val = 800 * t.val + p.val
    rw [e0]; omega
  · show win0_8.index t (1 : Fin 2) * 512 + 1 * q.val = q.val
    rw [e1]; omega

/-- What point t writes back to the second output array is block t of the right 512 columns of the whole arrays' layers. -/
theorem flushed9_eq (c : Dev nD) (t : Fin cfg0.N) :
    (dat0 (F := Ideal) V c).flushed 9 t = ((cfg0.win 9).blk t).view.read (Elt Ideal) (rightCols two512 (layers V c)) := by
  show (cfg0.win 9).cut (grid0.coords t) ((dat0 V c).after 9 t) = _
  rw [after0_9]
  refine funext fun (j : S800x512.Idx) => ?_
  obtain ⟨p, q, rfl⟩ : ∃ (p : Fin 800) (q : Fin 512), j = ix2 p q := ⟨j 0, j 1, eq_ix2 j⟩
  obtain ⟨-, -, -, -, -, -, -, -, e0, e1⟩ := idx_rows t
  have ht : t.val < 125 := lt_of_lt_of_eq t.isLt N_0
  show out0_9 (F := Ideal) (iblk0 V c 0 t) (iblk0 V c 1 t) (iblk0 V c 2 t) (iblk0 V c 3 t) (iblk0 V c 4 t) (iblk0 V c 5 t)
      (iblk0 V c 6 t) (iblk0 V c 7 t) (ix2 p q) = rightCols two512 (layers V c) (((cfg0.win 9).blk t).view.emb (ix2 p q))
  refine (Cert.EdgeBody.out0_9_apply (iblk0 V c 0 t) (iblk0 V c 1 t) (iblk0 V c 2 t) (iblk0 V c 3 t) (iblk0 V c 4 t)
    (iblk0 V c 5 t) (iblk0 V c 6 t) (iblk0 V c 7 t) p q).trans ?_
  refine (point_row V c t p ⟨800 * t.val + p.val, by have := p.isLt; omega⟩ rfl _).trans ?_
  refine (rightCols_at (layers V c) _ _ _ ?_ ?_).symm
  · show win0_9.index t (0 : Fin 2) * 800 + 1 * p.val = 800 * t.val + p.val
    rw [e0]; omega
  · show 512 + (win0_9.index t (1 : Fin 2) * 512 + 1 * q.val) = 512 + q.val
    rw [e1]; omega

/-- An index of the first output array is in point t's block iff each coordinate is in the block's range on its axis. -/
theorem mem_blk8 (t : Fin cfg0.N) (i : S100000x512.Idx) :
    i ∈ ((cfg0.win 8).blk t).view.set ↔ ∀ a : Fin 2, win0_8.index t a * S800x512.size a ≤ (i a).val
      ∧ (i a).val < win0_8.index t a * S800x512.size a + S800x512.size a := by
  show i ∈ ((View.whole main_v30_0).slice (win0_8.rect t)).set ↔ _
  rw [View.set_slice_whole, Rect.mem_set_unit]
  exact Iff.rfl

/-- The same for the second output array. -/
theorem mem_blk9 (t : Fin cfg0.N) (i : S100000x512.Idx) :
    i ∈ ((cfg0.win 9).blk t).view.set ↔ ∀ a : Fin 2, win0_9.index t a * S800x512.size a ≤ (i a).val
      ∧ (i a).val < win0_9.index t a * S800x512.size a + S800x512.size a := by
  show i ∈ ((View.whole main_v30_1).slice (win0_9.rect t)).set ↔ _
  rw [View.set_slice_whole, Rect.mem_set_unit]
  exact Iff.rfl

/-- Row r of the first output array is in the block of point r / 800. -/
theorem cover8 (i : S100000x512.Idx) :
    ∃ t : Fin cfg0.N, (cfg0.win 8).flush t = true ∧ i ∈ ((cfg0.win 8).blk t).view.set := by
  have hi0 : (i 0).val < 100000 := (i 0).isLt
  have hi1 : (i 1).val < 512 := (i 1).isLt
  obtain ⟨t, ht⟩ : ∃ t : Fin cfg0.N, t.val = (i 0).val / 800 :=
    ⟨⟨(i 0).val / 800, lt_of_lt_of_eq (by omega : (i 0).val / 800 < 125) N_0.symm⟩, rfl⟩
  obtain ⟨-, -, -, -, -, -, e0, e1, -⟩ := idx_rows t
  refine ⟨t, flush0_8 t, ?_⟩
  rw [mem_blk8]
  intro a
  match a with
  | ⟨0, _⟩ =>
    show win0_8.index t (0 : Fin 2) * 800 ≤ (i 0).val ∧ (i 0).val < win0_8.index t (0 : Fin 2) * 800 + 800
    rw [e0, ht]; omega
  | ⟨1, _⟩ =>
    show win0_8.index t (1 : Fin 2) * 512 ≤ (i 1).val ∧ (i 1).val < win0_8.index t (1 : Fin 2) * 512 + 512
    rw [e1]; omega

/-- Row r of the second output array is in the block of point r / 800. -/
theorem cover9 (i : S100000x512.Idx) :
    ∃ t : Fin cfg0.N, (cfg0.win 9).flush t = true ∧ i ∈ ((cfg0.win 9).blk t).view.set := by
  have hi0 : (i 0).val < 100000 := (i 0).isLt
  have hi1 : (i 1).val < 512 := (i 1).isLt
  obtain ⟨t, ht⟩ : ∃ t : Fin cfg0.N, t.val = (i 0).val / 800 :=
    ⟨⟨(i 0).val / 800, lt_of_lt_of_eq (by omega : (i 0).val / 800 < 125) N_0.symm⟩, rfl⟩
  obtain ⟨-, -, -, -, -, -, -, -, e0, e1⟩ := idx_rows t
  refine ⟨t, flush0_9 t, ?_⟩
  rw [mem_blk9]
  intro a
  match a with
  | ⟨0, _⟩ =>
    show win0_9.index t (0 : Fin 2) * 800 ≤ (i 0).val ∧ (i 0).val < win0_9.index t (0 : Fin 2) * 800 + 800
    rw [e0, ht]; omega
  | ⟨1, _⟩ =>
    show win0_9.index t (1 : Fin 2) * 512 ≤ (i 1).val ∧ (i 1).val < win0_9.index t (1 : Fin 2) * 512 + 512
    rw [e1]; omega

/-- The first output array after all 125 points: the left 512 columns of the two layers of the arrays the region found. -/
theorem edge_src (c : Dev nD) :
    (dat0 (F := Ideal) V c).arrAt 8 cfg0.N
      = leftCols two512 (dense (edge1 (A0 V c) (A1 V c) (A2 V c) (A3 V c) (A4 V c) (A5 V c)) (A6 V c) (A7 V c)) :=
  (dat0 (F := Ideal) V c).arrAt_eq_of_cover 8 (leftCols two512 (layers V c)) (fun t _ => flushed8_eq V c t) cover8

/-- The second output array after all 125 points: the right 512 columns of the two layers of the arrays the region found. -/
theorem edge_obj (c : Dev nD) :
    (dat0 (F := Ideal) V c).arrAt 9 cfg0.N
      = rightCols two512 (dense (edge1 (A0 V c) (A1 V c) (A2 V c) (A3 V c) (A4 V c) (A5 V c)) (A6 V c) (A7 V c)) :=
  (dat0 (F := Ideal) V c).arrAt_eq_of_cover 9 (rightCols two512 (layers V c)) (fun t _ => flushed9_eq V c t) cover9

end Cert.EdgeRegion

end
-- ==== Proof.NodeBody.lean ====
/-
  What the node stage's program leaves in its output block, read at an index.

  The program loads six whole blocks — a block of 1000 pooled rows of length 512, the 1000 counts of those rows as a
  column, two 512 × 512 weights and two bias rows — and stores one value over the whole output block. That value is,
  entry by entry: each pooled row divided by its count clamped below at one (the row's mean), then two layers, each
  "rows against a weight, plus the bias row, clamped below at zero". On the extended reals a change of float format is
  the identity, a product into the zero accumulator is the plain sum of products over the shared axis, a column
  repeated along the rows reads the column, a row repeated down the rows reads the row, and a cast to the same shape
  reads the operand; so the stored value is the composition of the three stages, at every entry.
-/
import proofs.«146360_j67980742361871_2_alg».proof.Proof.Gen.KernelIdeal.Frame
import proofs.«146360_j67980742361871_2_alg».proof.Proof.Layers
import proofs.«146360_j67980742361871_2_alg».proof.Proof.LibPlainMatmul
import proofs.«146360_j67980742361871_2_alg».proof.Proof.LibKeepdims

noncomputable section

namespace Cert.NodeBody

open Cert.KernelIdeal Cert.KernelIdeal.Gen Cert.Layers Idealize.ShloMosaic Idealize.ShloMosaic.ValueIdx
open scoped BigOperators

/-- The offsets of a whole-block access are zero on both axes. -/
theorem zeros2 : (![0, 0] : Fin 2 → Nat) = fun _ => 0 := funext fun a => by fin_cases a <;> rfl

/-! ## The three stages as the program writes them -/

/-- The row means as the program writes them: the counts clamped below at one, repeated along each row, and the
    pooled rows divided by them. -/
def meanP (x0 : FVec Ideal S1000x512 .f32) (x1 : FVec Ideal S1000x1 .f32) : FVec Ideal S1000x512 .bf16 :=
  truncf .bf16 (divf (shapeCast S1000x512 x0 shapeCasts_S1000x512_S1000x512)
    (broadcastTo S1000x512 (maximumf (shapeCast S1000x1 x1 shapeCasts_S1000x1_S1000x1)
      (broadcast S1000x1 (Scalar.ofBits .f32 0x3F800000#32))) broadcasts_S1000x1_S1000x512)) bitsLt_bf16_f32

/-- A layer as the program writes it: the product into the zero accumulator, the bias row repeated down the rows
    added, and the clamp at zero. -/
def layerP (l : FVec Ideal S1000x512 .bf16) (w : FVec Ideal S512x512 .bf16) (b : FVec Ideal S1x512 .f32) :
    FVec Ideal S1000x512 .f32 :=
  maximumf (addf (matmul dot_S1000x512_S512x512_S1000x512_1_0_0_1_n_n none l
      (shapeCast S512x512 w shapeCasts_S512x512_S512x512) (constant S1000x512 .f32 0x00000000#32))
    (broadcastTo S1000x512 (shapeCast S1x512 b shapeCasts_S1x512_S1x512) broadcasts_S1x512_S1000x512))
    (broadcast S1000x512 (Scalar.ofBits .f32 0x00000000#32))

/-- The stored value is the means, a layer, a change of format, and a layer. -/
theorem pay_eq (x0 : Vec Ideal S1000x512 .f32) (x1 : Vec Ideal S1000x1 .f32) (x2 : Vec Ideal S512x512 .bf16)
    (x3 : Vec Ideal S1x512 .f32) (x4 : Vec Ideal S512x512 .bf16) (x5 : Vec Ideal S1x512 .f32) :
    k1_pay1 (F := Ideal) x0 x1 x2 x3 x4 x5
      = layerP (truncf .bf16 (layerP (meanP x0 x1) x2 x3) bitsLt_bf16_f32) x4 x5 := rfl

/-! ## Each stage at an entry -/

/-- The means as written are the row means. -/
theorem meanP_eq (x0 : FVec Ideal S1000x512 .f32) (x1 : FVec Ideal S1000x1 .f32) :
    meanP x0 x1 = meanRows x0 x1 := by
  funext j
  obtain ⟨p, c, rfl⟩ : ∃ (p : Fin 1000) (c : Fin 512), j = ix2 p c := ⟨j 0, j 1, eq_ix2 j⟩
  rw [meanRows_apply]
  show Ideal.div (shapeCast S1000x512 x0 shapeCasts_S1000x512_S1000x512 (ix2 p c))
      (broadcastTo S1000x512 (maximumf (F := Ideal) (shapeCast S1000x1 x1 shapeCasts_S1000x1_S1000x1)
        (broadcast S1000x1 (Scalar.ofBits (F := Ideal) .f32 0x3F800000#32))) broadcasts_S1000x1_S1000x512 (ix2 p c)) = _
  rw [shapeCast_self, Cert.LibKeepdims.broadcastTo_a1_ab_apply, shapeCast_self]
  rfl

/-- A layer as written is the layer, at every entry. -/
theorem layerP_eq (l : FVec Ideal S1000x512 .bf16) (w : FVec Ideal S512x512 .bf16) (b : FVec Ideal S1x512 .f32) :
    layerP l w b = dense l w b := by
  funext j
  obtain ⟨p, q, rfl⟩ : ∃ (p : Fin 1000) (q : Fin 512), j = ix2 p q := ⟨j 0, j 1, eq_ix2 j⟩
  rw [dense_apply]
  show max (matmul dot_S1000x512_S512x512_S1000x512_1_0_0_1_n_n none l
        (shapeCast S512x512 w shapeCasts_S512x512_S512x512) (constant (F := Ideal) S1000x512 .f32 0x00000000#32) (ix2 p q)
      + broadcastTo S1000x512 (shapeCast S1x512 b shapeCasts_S1x512_S1x512) broadcasts_S1x512_S1000x512 (ix2 p q))
      (Ideal.ofBits .f32 0x00000000#32) = _
  rw [shapeCast_self, shapeCast_self, broadcastTo_1b_ab_apply]
  refine congrArg (fun s => max (s + b (ix2 (0 : Fin 1) q)) zeroF) ?_
  exact Cert.LibPlainMatmul.matmul_zero_plain _ l w p q

/-! ## The output block -/

/-- One store over the whole block of a value computed from whole-block loads leaves that value of the blocks. -/
theorem out1_6_eq_pay (x0 : Vec Ideal S1000x512 .f32) (x1 : Vec Ideal S1000x1 .f32) (x2 : Vec Ideal S512x512 .bf16)
    (x3 : Vec Ideal S1x512 .f32) (x4 : Vec Ideal S512x512 .bf16) (x5 : Vec Ideal S1x512 .f32) :
    out1_6 (F := Ideal) x0 x1 x2 x3 x4 x5 = k1_pay1 (F := Ideal) x0 x1 x2 x3 x4 x5 := by
  unfold out1_6
  rw [View.canon_unit_zero zeros2]
  simp only [View.ld_unit_zero (S := S1000x512) zeros2, View.ld_unit_zero (S := S1000x1) zeros2,
    View.ld_unit_zero (S := S512x512) zeros2, View.ld_unit_zero (S := S1x512) zeros2]

/-- The output block is the means of the pooled block, then the two layers. -/
theorem out1_6_eq (x0 : Vec Ideal S1000x512 .f32) (x1 : Vec Ideal S1000x1 .f32) (x2 : Vec Ideal S512x512 .bf16)
    (x3 : Vec Ideal S1x512 .f32) (x4 : Vec Ideal S512x512 .bf16) (x5 : Vec Ideal S1x512 .f32) :
    out1_6 (F := Ideal) x0 x1 x2 x3 x4 x5 = dense (dense (meanRows x0 x1) x2 x3) x4 x5 := by
  rw [out1_6_eq_pay, pay_eq, layerP_eq, layerP_eq, meanP_eq]
  rfl

/-- The output block at an entry. -/
theorem out1_6_apply (x0 : Vec Ideal S1000x512 .f32) (x1 : Vec Ideal S1000x1 .f32) (x2 : Vec Ideal S512x512 .bf16)
    (x3 : Vec Ideal S1x512 .f32) (x4 : Vec Ideal S512x512 .bf16) (x5 : Vec Ideal S1x512 .f32) (p : Fin 1000) (q : Fin 512) :
    out1_6 (F := Ideal) x0 x1 x2 x3 x4 x5 (ix2 p q) = dense (dense (meanRows x0 x1) x2 x3) x4 x5 (ix2 p q) :=
  congrFun (out1_6_eq x0 x1 x2 x3 x4 x5) (ix2 p q)

end Cert.NodeBody

end
-- ==== Proof.NodeRegion.lean ====
/-
  The node stage's output array after all fifty grid points, as one function of the six arrays the stage reads.

  The grid has fifty points. At point t the pooled sums' window and the counts' window hold rows 1000·t … 1000·t + 999
  of their arrays, the two weights' and the two bias rows' windows hold their whole arrays at every point, and the
  output's window is written back to rows 1000·t … 1000·t + 999 of the output array. Entry (p, q) of what a point
  writes is the two layers applied to the mean of row p of the pooled block; a layer's entry reads one row of its
  left operand only, and a mean's entry reads one row of the sums and of the counts only, so that entry is entry
  (1000·t + p, q) of the same two layers applied to the means of the whole arrays. Every row r of the output lies in
  exactly the block of point r / 1000, so after the last point the output array is that function everywhere.
-/
import proofs.«146360_j67980742361871_2_alg».proof.Proof.NodeBody
import Idealize.ShloMosaic.Lib.Pipeline.Value

noncomputable section

namespace Cert.NodeRegion

open Cert.KernelIdeal Cert.KernelIdeal.Gen Cert.Layers Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

/-! ## The six arrays and the function of them -/

/-- The pooled sums, as the stage finds them. -/
abbrev arr0 (c : Dev nD) : Mat 50000 512 := V c (Pipeline.arrRef spec1 0)
/-- The counts, as a column. -/
abbrev arr1 (c : Dev nD) : Mat 50000 1 := V c (Pipeline.arrRef spec1 1)
/-- The first weight. -/
abbrev arr2 (c : Dev nD) : Mat 512 512 := V c (Pipeline.arrRef spec1 2)
/-- The first bias row. -/
abbrev arr3 (c : Dev nD) : Mat 1 512 := V c (Pipeline.arrRef spec1 3)
/-- The second weight. -/
abbrev arr4 (c : Dev nD) : Mat 512 512 := V c (Pipeline.arrRef spec1 4)
/-- The second bias row. -/
abbrev arr5 (c : Dev nD) : Mat 1 512 := V c (Pipeline.arrRef spec1 5)

/-- The two layers applied to the row means of the whole arrays. -/
abbrev nodeG (c : Dev nD) : Mat 50000 512 :=
  dense (dense (meanRows (arr0 V c) (arr1 V c)) (arr2 V c) (arr3 V c)) (arr4 V c) (arr5 V c)

/-! ## Where each window's block sits -/

/-- The windows' block indices over the grid: the row windows (sums, counts, output) move with the point along the
    rows and stay at column block zero; the weights' and bias rows' windows stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The grid has fifty points. -/
theorem N50 : cfg1.N = 50 := N_1

/-- Row 1000·t + p is a row of the arrays of 50000 rows, for a point t of the grid and a row p of a block. -/
theorem row_lt (t : Fin cfg1.N) (p : Fin 1000) : 1000 * t.val + p.val < 50000 := by
  have ht : t.val < 50 := lt_of_lt_of_eq t.isLt N50
  have hp := p.isLt
  omega

/-- The row of the arrays that row p of a block at point t is. -/
abbrev rowAt (t : Fin cfg1.N) (p : Fin 1000) : Fin 50000 := ⟨1000 * t.val + p.val, row_lt t p⟩

/-! ## The input blocks as parts of their arrays -/

/-- Row p of the pooled block at point t is row 1000·t + p of the pooled sums. -/
theorem iblk_0 (c : Dev nD) (t : Fin cfg1.N) (p : Fin 1000) (q : Fin 512) :
    (iblk1 V c 0 t : Mat 1000 512) (ix2 p q) = arr0 V c (ix2 (rowAt t p) q) := by
  obtain ⟨e0, e1, -⟩ := idx_facts t
  show V c (Pipeline.arrRef spec1 0) (((cfg1.win 0).blk t).view.emb (ix2 p q)) = V c (Pipeline.arrRef spec1 0) (ix2 (rowAt t p) q)
  refine congrArg (V c (Pipeline.arrRef spec1 0)) (funext fun a => Fin.ext ?_)
  match a with
  | ⟨0, _⟩ => show win1_0.index t (0 : Fin 2) * 1000 + 1 * p.val = 1000 * t.val + p.val; rw [e0]; omega
  | ⟨1, _⟩ => show win1_0.index t (1 : Fin 2) * 512 + 1 * q.val = q.val; rw [e1]; omega

/-- Row p of the counts' block at point t is row 1000·t + p of the counts. -/
theorem iblk_1 (c : Dev nD) (t : Fin cfg1.N) (p : Fin 1000) (u : Fin 1) :
    (iblk1 V c 1 t : Mat 1000 1) (ix2 p u) = arr1 V c (ix2 (rowAt t p) u) := by
  obtain ⟨-, -, e0, e1, -⟩ := idx_facts t
  show V c (Pipeline.arrRef spec1 1) (((cfg1.win 1).blk t).view.emb (ix2 p u)) = V c (Pipeline.arrRef spec1 1) (ix2 (rowAt t p) u)
  refine congrArg (V c (Pipeline.arrRef spec1 1)) (funext fun a => Fin.ext ?_)
  match a with
  | ⟨0, _⟩ => show win1_1.index t (0 : Fin 2) * 1000 + 1 * p.val = 1000 * t.val + p.val; rw [e0]; omega
  | ⟨1, _⟩ => show win1_1.index t (1 : Fin 2) * 1 + 1 * u.val = u.val; rw [e1]; omega

/-- The first weight's block is the whole weight, at every point. -/
theorem iblk_2 (c : Dev nD) (t : Fin cfg1.N) : (iblk1 V c 2 t : Mat 512 512) = arr2 V c := by
  obtain ⟨-, -, -, -, e0, e1, -⟩ := idx_facts t
  funext y
  show V c (Pipeline.arrRef spec1 2) (((cfg1.win 2).blk t).view.emb y) = V c (Pipeline.arrRef spec1 2) y
  refine congrArg (V c (Pipeline.arrRef spec1 2)) (funext fun a => Fin.ext ?_)
  match a with
  | ⟨0, _⟩ => show win1_2.index t (0 : Fin 2) * 512 + 1 * (y 0).val = (y 0).val; rw [e0]; omega
  | ⟨1, _⟩ => show win1_2.index t (1 : Fin 2) * 512 + 1 * (y 1).val = (y 1).val; rw [e1]; omega

/-- The first bias row's block is the whole row, at every point. -/
theorem iblk_3 (c : Dev nD) (t : Fin cfg1.N) : (iblk1 V c 3 t : Mat 1 512) = arr3 V c := by
  obtain ⟨-, -, -, -, -, -, e0, e1, -⟩ := idx_facts t
  funext y
  show V c (Pipeline.arrRef spec1 3) (((cfg1.win 3).blk t).view.emb y) = V c (Pipeline.arrRef spec1 3) y
  refine congrArg (V c (Pipeline.arrRef spec1 3)) (funext fun a => Fin.ext ?_)
  match a with
  | ⟨0, _⟩ => show win1_3.index t (0 : Fin 2) * 1 + 1 * (y 0).val = (y 0).val; rw [e0]; omega
  | ⟨1, _⟩ => show win1_3.index t (1 : Fin 2) * 512 + 1 * (y 1).val = (y 1).val; rw [e1]; omega

/-- The second weight's block is the whole weight, at every point. -/
theorem iblk_4 (c : Dev nD) (t : Fin cfg1.N) : (iblk1 V c 4 t : Mat 512 512) = arr4 V c := by
  obtain ⟨-, -, -, -, -, -, -, -, e0, e1, -⟩ := idx_facts t
  funext y
  show V c (Pipeline.arrRef spec1 4) (((cfg1.win 4).blk t).view.emb y) = V c (Pipeline.arrRef spec1 4) y
  refine congrArg (V c (Pipeline.arrRef spec1 4)) (funext fun a => Fin.ext ?_)
  match a with
  | ⟨0, _⟩ => show win1_4.index t (0 : Fin 2) * 512 + 1 * (y 0).val = (y 0).val; rw [e0]; omega
  | ⟨1, _⟩ => show win1_4.index t (1 : Fin 2) * 512 + 1 * (y 1).val = (y 1).val; rw [e1]; omega

/-- The second bias row's block is the whole row, at every point. -/
theorem iblk_5 (c : Dev nD) (t : Fin cfg1.N) : (iblk1 V c 5 t : Mat 1 512) = arr5 V c := by
  obtain ⟨-, -, -, -, -, -, -, -, -, -, e0, e1, -⟩ := idx_facts t
  funext y
  show V c (Pipeline.arrRef spec1 5) (((cfg1.win 5).blk t).view.emb y) = V c (Pipeline.arrRef spec1 5) y
  refine congrArg (V c (Pipeline.arrRef spec1 5)) (funext fun a => Fin.ext ?_)
  match a with
  | ⟨0, _⟩ => show win1_5.index t (0 : Fin 2) * 1 + 1 * (y 0).val = (y 0).val; rw [e0]; omega
  | ⟨1, _⟩ => show win1_5.index t (1 : Fin 2) * 512 + 1 * (y 1).val = (y 1).val; rw [e1]; omega

/-- Entry (p, q) of the output's block at point t sits at entry (1000·t + p, q) of the output array. -/
theorem emb_6 (t : Fin cfg1.N) (p : Fin 1000) (q : Fin 512) :
    ((cfg1.win 6).blk t).view.emb (ix2 p q) = (ix2 (rowAt t p) q : S50000x512.Idx) := by
  obtain ⟨-, -, -, -, -, -, -, -, -, -, -, -, e0, e1⟩ := idx_facts t
  refine funext fun a => Fin.ext ?_
  match a with
  | ⟨0, _⟩ => show win1_6.index t (0 : Fin 2) * 1000 + 1 * p.val = 1000 * t.val + p.val; rw [e0]; omega
  | ⟨1, _⟩ => show win1_6.index t (1 : Fin 2) * 512 + 1 * q.val = q.val; rw [e1]; omega

/-! ## What a point writes back -/

/-- The body's output block, over blocks that are the stated parts of six arrays, is at entry (p, q) the entry
    (r, q) of the two layers applied to the row means of the arrays, r the row of the arrays that row p of the row
    blocks is: a layer's entry reads one row of its left operand, a mean's entry one row of the sums and counts. -/
theorem block_entry (A0 : Mat 50000 512) (A1 : Mat 50000 1) (A2 : Mat 512 512) (A3 : Mat 1 512) (A4 : Mat 512 512) (A5 : Mat 1 512)
    (x0 : Vec Ideal S1000x512 .f32) (x1 : Vec Ideal S1000x1 .f32) (x2 : Vec Ideal S512x512 .bf16)
    (x3 : Vec Ideal S1x512 .f32) (x4 : Vec Ideal S512x512 .bf16) (x5 : Vec Ideal S1x512 .f32)
    (p : Fin 1000) (r : Fin 50000) (q : Fin 512)
    (h0 : ∀ k : Fin 512, (x0 : Mat 1000 512) (ix2 p k) = A0 (ix2 r k))
    (h1 : (x1 : Mat 1000 1) (ix2 p (0 : Fin 1)) = A1 (ix2 r (0 : Fin 1)))
    (h2 : (x2 : Mat 512 512) = A2) (h3 : (x3 : Mat 1 512) = A3) (h4 : (x4 : Mat 512 512) = A4) (h5 : (x5 : Mat 1 512) = A5) :
    out1_6 (F := Ideal) x0 x1 x2 x3 x4 x5 (ix2 p q) = dense (dense (meanRows A0 A1) A2 A3) A4 A5 (ix2 r q) := by
  subst h2 h3 h4 h5
  rw [Cert.NodeBody.out1_6_apply]
  refine dense_row _ _ _ _ p r q fun k => ?_
  refine dense_row _ _ _ _ p r k fun k' => ?_
  exact meanRows_row _ _ _ _ p r k' (h0 k') h1

/-- What point t writes back is block t of the function of the arrays. -/
theorem flushed_eq (c : Dev nD) (t : Fin cfg1.N) :
    (dat1 (F := Ideal) V c).flushed 6 t = ((cfg1.win 6).blk t).view.read (Elt Ideal) (nodeG V c) := by
  show (cfg1.win 6).cut (grid1.coords t) ((dat1 (F := Ideal) V c).after 6 t) = _
  rw [after1_6]
  funext j
  obtain ⟨p, q, rfl⟩ : ∃ (p : Fin 1000) (q : Fin 512), j = ix2 p q := ⟨j 0, j 1, eq_ix2 j⟩
  show out1_6 (F := Ideal) (iblk1 V c 0 t) (iblk1 V c 1 t) (iblk1 V c 2 t) (iblk1 V c 3 t) (iblk1 V c 4 t) (iblk1 V c 5 t) (ix2 p q)
    = nodeG V c (((cfg1.win 6).blk t).view.emb (ix2 p q))
  rw [emb_6 t p q]
  exact block_entry (arr0 V c) (arr1 V c) (arr2 V c) (arr3 V c) (arr4 V c) (arr5 V c)
    (iblk1 V c 0 t) (iblk1 V c 1 t) (iblk1 V c 2 t) (iblk1 V c 3 t) (iblk1 V c 4 t) (iblk1 V c 5 t) p (rowAt t p) q
    (fun k => iblk_0 V c t p k) (iblk_1 V c t p 0) (iblk_2 V c t) (iblk_3 V c t) (iblk_4 V c t) (iblk_5 V c t)

/-! ## Every row of the output is written -/

/-- An entry of the output array is in point t's block iff each coordinate is in the block's range on its axis. -/
theorem mem_blk6 (t : Fin cfg1.N) (i : S50000x512.Idx) :
    i ∈ ((cfg1.win 6).blk t).view.set ↔ ∀ a : Fin 2, win1_6.index t a * S1000x512.size a ≤ (i a).val
      ∧ (i a).val < win1_6.index t a * S1000x512.size a + S1000x512.size a := by
  show i ∈ ((View.whole main_v69).slice (win1_6.rect t)).set ↔ _
  rw [View.set_slice_whole, Rect.mem_set_unit]
  exact Iff.rfl

/-- Row r of the output array is in the block of point r / 1000, which is written back. -/
theorem cover6 (i : S50000x512.Idx) :
    ∃ t : Fin cfg1.N, (cfg1.win 6).flush t = true ∧ i ∈ ((cfg1.win 6).blk t).view.set := by
  have hi0 : (i 0).val < 50000 := (i 0).isLt
  have hi1 : (i 1).val < 512 := (i 1).isLt
  let t : Fin cfg1.N := ⟨(i 0).val / 1000, by rw [N50]; omega⟩
  have ht : t.val = (i 0).val / 1000 := rfl
  obtain ⟨-, -, -, -, -, -, -, -, -, -, -, -, e0, e1⟩ := idx_facts t
  refine ⟨t, flush1_6 t, ?_⟩
  rw [mem_blk6]
  intro a
  match a with
  | ⟨0, _⟩ =>
    show win1_6.index t (0 : Fin 2) * 1000 ≤ (i 0).val ∧ (i 0).val < win1_6.index t (0 : Fin 2) * 1000 + 1000
    rw [e0, ht]; omega
  | ⟨1, _⟩ =>
    show win1_6.index t (1 : Fin 2) * 512 ≤ (i 1).val ∧ (i 1).val < win1_6.index t (1 : Fin 2) * 512 + 512
    rw [e1]; omega

/-! ## The output array after the last point -/

/-- After all fifty points the output array is the two layers applied to the row means of the arrays the stage
    found. -/
theorem node_out (c : Dev nD) :
    (dat1 (F := Ideal) V c).arrAt 6 cfg1.N
      = dense (dense (meanRows (arr0 V c) (arr1 V c)) (arr2 V c) (arr3 V c)) (arr4 V c) (arr5 V c) :=
  (dat1 (F := Ideal) V c).arrAt_eq_of_cover 6 (nodeG V c) (fun t _ => flushed_eq V c t) cover6

end Cert.NodeRegion

end
-- ==== Proof.LibConcat2.lean ====
/-
  A concatenation of two arrays, named.

  The printed programs write a two-operand `concatenate` over a list of two (shape, array) pairs, and the shape fact it
  takes is stated about that list, so its type mentions the two arrays. Naming the concatenation as a function of the
  two arrays, with the shape fact stated about the two shapes alone, makes the arrays ordinary arguments on which
  nothing else depends, which rewriting reaches.
-/
import Idealize.ShloMosaic.PureOps.ShapeOps

namespace Cert.LibConcat2

open Idealize.ShloMosaic

/-- The concatenation of `x` (of shape `s₁`) and `y` (of shape `s₂`) along axis `a` into shape `t`. -/
def concat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A two-operand `concatenate` is `concat2` of its operands. -/
theorem concatenate_pair {α : Type} (t : Shape) (a : Fin t.rank) (s₁ s₂ : Shape) (x : s₁.Idx → α) (y : s₂.Idx → α)
    (h : Shape.Concatenates (List.map (fun p : (s : Shape) × (s.Idx → α) => p.1) [⟨s₁, x⟩, ⟨s₂, y⟩]) t a) :
    concatenate t a [⟨s₁, x⟩, ⟨s₂, y⟩] h = concat2 t a s₁ s₂ h x y := rfl

end Cert.LibConcat2
-- ==== Proof.RefEdge.lean ====
/-
  The reference's edge stage, read back as the two-layer network on arrays of extended reals.

  Row p of the first layer's input is the source row of edge p followed by its object row, every entry multiplied by
  the edge's weight: the joined array read at a column below 512 is the source array at that column, and at column
  512 + c the object array at column c. Each layer is a contraction over the columns of its input against the
  transposed weight, plus the bias laid along the rows, clamped below at zero; read at an entry (p, q) that is
  max (Σ_c x(p,c) · w(q,c) + b(q)) 0, the entry (p, q) of "dense x (tr w) (rowOf b)". The law that a sum over
  512 + 512 positions splits in two then turns the first layer into the two-product form. The two row arrays
  themselves are left as the program computes them.
-/
import proofs.«146360_j67980742361871_2_alg».proof.Proof.Gen.ReferenceIdeal.Read
import proofs.«146360_j67980742361871_2_alg».proof.Proof.Layers
import proofs.«146360_j67980742361871_2_alg».proof.Proof.LibConcat2

noncomputable section

namespace Cert.RefNet

open Cert.ReferenceIdeal Cert.ReferenceIdeal.Read Cert.Layers Idealize.ShloMosaic Idealize.ShloMosaic.ValueIdx
open scoped BigOperators

/-- An array of extended reals of shape s, as the program's operations take it. -/
abbrev Arr (s : Shape) : Type := (⟨s, .f32⟩ : BufTy).Contents (Elt Ideal)
/-- An array of 32-bit integers of shape s. -/
abbrev IArr (s : Shape) : Type := (⟨s, .i32⟩ : BufTy).Contents (Elt Ideal)

/-! ## The first layer's input at an index -/

/-- At a column below 512 the joined, scaled row is the source row's entry times the edge's weight. -/
theorem feat_left (x0 : Arr S50000x510) (x1 : Arr S100000x1) (x2 : IArr S100000x2) (x3 : Arr S50000x2)
    (p : Fin 100000) (c : Fin 512) :
    val_main_v21 (F := Ideal) x0 x1 x2 x3 (ix2 p ⟨c.val, by have := c.isLt; omega⟩)
      = val_main_v11 (F := Ideal) x0 x2 x3 (ix2 p c) * x1 (ix2 p (0 : Fin 1)) := by
  rw [val_main_v21_apply, val_main_v20_apply, Ideal.mulf_def]
  unfold val_main_v19
  congr 1
  · exact concatenate_pair_apply_left (t := S100000x1024) (s₁ := S100000x512) (s₂ := S100000x512) 1
      (val_main_v11 (F := Ideal) x0 x2 x3) (val_main_v18 (F := Ideal) x0 x2 x3) _
      (ix2 p ⟨c.val, by have := c.isLt; omega⟩) rfl (ix2 p c)
      (fun b => match b with | ⟨0, _⟩ => rfl | ⟨1, _⟩ => rfl)
  · exact congrArg x1 (funext fun a => by match a with | ⟨0, _⟩ => rfl | ⟨1, _⟩ => rfl)

/-- At column 512 + c it is the object row's entry c times the edge's weight. -/
theorem feat_right (x0 : Arr S50000x510) (x1 : Arr S100000x1) (x2 : IArr S100000x2) (x3 : Arr S50000x2)
    (p : Fin 100000) (c : Fin 512) :
    val_main_v21 (F := Ideal) x0 x1 x2 x3 (ix2 p ⟨512 + c.val, by have := c.isLt; omega⟩)
      = val_main_v18 (F := Ideal) x0 x2 x3 (ix2 p c) * x1 (ix2 p (0 : Fin 1)) := by
  rw [val_main_v21_apply, val_main_v20_apply, Ideal.mulf_def]
  unfold val_main_v19
  congr 1
  · exact concatenate_pair_apply_right (t := S100000x1024) (s₁ := S100000x512) (s₂ := S100000x512) 1
      (val_main_v11 (F := Ideal) x0 x2 x3) (val_main_v18 (F := Ideal) x0 x2 x3) _
      (ix2 p ⟨512 + c.val, by have := c.isLt; omega⟩) rfl rfl (ix2 p c)
      (fun b hb => match b, hb with | ⟨0, _⟩, _ => rfl | ⟨1, _⟩, hb => absurd rfl hb)
      (Nat.add_comm c.val 512)
  · exact congrArg x1 (funext fun a => by match a with | ⟨0, _⟩ => rfl | ⟨1, _⟩ => rfl)

/-! ## The transposed weights -/

/-- The first weight with its axes exchanged, as the program lays it out for the contraction. -/
theorem transpose_w1a (x4 : Arr S512x1024) : val_main_v22 (F := Ideal) x4 = tr x4 := by
  funext i
  obtain ⟨p, q, rfl⟩ : ∃ (p : Fin 1024) (q : Fin 512), i = ix2 p q := ⟨i 0, i 1, eq_ix2 i⟩
  rw [val_main_v22_apply]
  exact congrArg x4 (funext fun a => by match a with | ⟨0, _⟩ => rfl | ⟨1, _⟩ => rfl)

/-- The second weight with its axes exchanged. -/
theorem transpose_w1b (x6 : Arr S1024x512) : val_main_v28 (F := Ideal) x6 = tr x6 := by
  funext i
  obtain ⟨p, q, rfl⟩ : ∃ (p : Fin 512) (q : Fin 1024), i = ix2 p q := ⟨i 0, i 1, eq_ix2 i⟩
  rw [val_main_v28_apply]
  exact congrArg x6 (funext fun a => by match a with | ⟨0, _⟩ => rfl | ⟨1, _⟩ => rfl)

/-! ## The two layers, each as a whole array -/

/-- The first layer: the joined rows against the transposed first weight, the bias, the clamp. -/
theorem layer1_ref (x0 : Arr S50000x510) (x1 : Arr S100000x1) (x2 : IArr S100000x2) (x3 : Arr S50000x2)
    (x4 : Arr S512x1024) (x5 : Arr S512) :
    val_main_v27 (F := Ideal) x0 x1 x2 x3 x4 x5
      = dense (val_main_v21 (F := Ideal) x0 x1 x2 x3) (tr x4) (rowOf x5) := by
  funext i
  obtain ⟨p, q, rfl⟩ : ∃ (p : Fin 100000) (q : Fin 512), i = ix2 p q := ⟨i 0, i 1, eq_ix2 i⟩
  rw [dense_apply, val_main_v27_apply, val_main_v26_apply, val_main_v23_apply, val_main_v25_apply,
    val_main_v24_apply, val_main_call0_v0_apply, val_main_call0_cst_apply]
  have e1 : ∀ k : Fin 1024, lidx_main_v23 (ix2 p q) k = ix2 p k :=
    fun k => funext fun a => by match a with | ⟨0, _⟩ => rfl | ⟨1, _⟩ => rfl
  have e2 : ∀ k : Fin 1024, idx_main_v22 (ridx_main_v23 (ix2 p q) k) = ix2 q k :=
    fun k => funext fun a => by match a with | ⟨0, _⟩ => rfl | ⟨1, _⟩ => rfl
  have e3 : idx_main_v24 (idx_main_v25 (ix2 p q)) = ix1 q :=
    funext fun a => by match a with | ⟨0, _⟩ => rfl
  simp only [val_main_v22_apply, e1, e2, e3, Ideal.maximumf_def, Ideal.addf_def, Ideal.ofBits_def]
  rfl

/-- The second layer: the first layer's rows against the transposed second weight, the bias, the clamp. -/
theorem layer2_ref (x0 : Arr S50000x510) (x1 : Arr S100000x1) (x2 : IArr S100000x2) (x3 : Arr S50000x2)
    (x4 : Arr S512x1024) (x5 : Arr S512) (x6 : Arr S1024x512) (x7 : Arr S1024) :
    val_main_v33 (F := Ideal) x0 x1 x2 x3 x4 x5 x6 x7
      = dense (val_main_v27 (F := Ideal) x0 x1 x2 x3 x4 x5) (tr x6) (rowOf x7) := by
  funext i
  obtain ⟨p, q, rfl⟩ : ∃ (p : Fin 100000) (q : Fin 1024), i = ix2 p q := ⟨i 0, i 1, eq_ix2 i⟩
  rw [dense_apply, val_main_v33_apply, val_main_v32_apply, val_main_v29_apply, val_main_v31_apply,
    val_main_v30_apply, val_main_call1_v0_apply, val_main_call1_cst_apply]
  have e1 : ∀ k : Fin 512, lidx_main_v29 (ix2 p q) k = ix2 p k :=
    fun k => funext fun a => by match a with | ⟨0, _⟩ => rfl | ⟨1, _⟩ => rfl
  have e2 : ∀ k : Fin 512, idx_main_v28 (ridx_main_v29 (ix2 p q) k) = ix2 q k :=
    fun k => funext fun a => by match a with | ⟨0, _⟩ => rfl | ⟨1, _⟩ => rfl
  have e3 : idx_main_v30 (idx_main_v31 (ix2 p q)) = ix1 q :=
    funext fun a => by match a with | ⟨0, _⟩ => rfl
  simp only [val_main_v28_apply, e1, e2, e3, Ideal.maximumf_def, Ideal.addf_def, Ideal.ofBits_def]
  rfl

/-! ## The edge stage -/

/-- The first layer in its two-product form: the source rows against the top half of the transposed weight, the
    object rows against its bottom half, each row scaled by its edge's weight. -/
theorem edge_first_ref (x0 : Arr S50000x510) (x1 : Arr S100000x1) (x2 : IArr S100000x2) (x3 : Arr S50000x2)
    (x4 : Arr S512x1024) (x5 : Arr S512) :
    val_main_v27 (F := Ideal) x0 x1 x2 x3 x4 x5
      = edge1 (val_main_v11 (F := Ideal) x0 x2 x3) (val_main_v18 (F := Ideal) x0 x2 x3) x1
          (topRows two512 (tr x4)) (botRows two512 (tr x4)) (rowOf x5) := by
  rw [layer1_ref]
  exact dense_joined two512 _ _ _ _ _ _ (feat_left x0 x1 x2 x3) (feat_right x0 x1 x2 x3)

/-- The array after the second clamp is the second layer of the two-product first layer. -/
theorem edge_ref (x0 : Arr S50000x510) (x1 : Arr S100000x1) (x2 : IArr S100000x2) (x3 : Arr S50000x2)
    (x4 : Arr S512x1024) (x5 : Arr S512) (x6 : Arr S1024x512) (x7 : Arr S1024) :
    val_main_v33 (F := Ideal) x0 x1 x2 x3 x4 x5 x6 x7
      = dense (edge1 (val_main_v11 (F := Ideal) x0 x2 x3) (val_main_v18 (F := Ideal) x0 x2 x3) x1
          (topRows two512 (tr x4)) (botRows two512 (tr x4)) (rowOf x5)) (tr x6) (rowOf x7) := by
  rw [layer2_ref, edge_first_ref]

/-- The source messages are its left 512 columns … -/
theorem src_ref (x0 : Arr S50000x510) (x1 : Arr S100000x1) (x2 : IArr S100000x2) (x3 : Arr S50000x2)
    (x4 : Arr S512x1024) (x5 : Arr S512) (x6 : Arr S1024x512) (x7 : Arr S1024) :
    val_main_v34 (F := Ideal) x0 x1 x2 x3 x4 x5 x6 x7
      = leftCols two512 (val_main_v33 (F := Ideal) x0 x1 x2 x3 x4 x5 x6 x7) := by
  funext i
  obtain ⟨p, q, rfl⟩ : ∃ (p : Fin 100000) (q : Fin 512), i = ix2 p q := ⟨i 0, i 1, eq_ix2 i⟩
  rw [val_main_v34_apply]
  exact congrArg (val_main_v33 (F := Ideal) x0 x1 x2 x3 x4 x5 x6 x7)
    (funext fun a => by match a with | ⟨0, _⟩ => rfl | ⟨1, _⟩ => rfl)

/-- … and the object messages its right 512 columns. -/
theorem obj_ref (x0 : Arr S50000x510) (x1 : Arr S100000x1) (x2 : IArr S100000x2) (x3 : Arr S50000x2)
    (x4 : Arr S512x1024) (x5 : Arr S512) (x6 : Arr S1024x512) (x7 : Arr S1024) :
    val_main_v35 (F := Ideal) x0 x1 x2 x3 x4 x5 x6 x7
      = rightCols two512 (val_main_v33 (F := Ideal) x0 x1 x2 x3 x4 x5 x6 x7) := by
  funext i
  obtain ⟨p, q, rfl⟩ : ∃ (p : Fin 100000) (q : Fin 512), i = ix2 p q := ⟨i 0, i 1, eq_ix2 i⟩
  rw [val_main_v35_apply]
  exact congrArg (val_main_v33 (F := Ideal) x0 x1 x2 x3 x4 x5 x6 x7)
    (funext fun a => by match a with | ⟨0, _⟩ => rfl | ⟨1, _⟩ => rfl)

end Cert.RefNet

end
-- ==== Proof.RefNode.lean ====
/-
  The reference's node stage, the program's result, read back as the two-layer network on arrays of extended reals.

  Each node's summed messages are divided by the number of edges that reach it, that number clamped below at one
  (the program writes the clamp with the one first; a maximum does not depend on the order of its operands), the
  count laid along the row. Then two layers, each a contraction over the columns of its input against the transposed
  weight, plus the bias laid along the rows, clamped below at zero. The summed messages and the counts themselves
  are left as the program computes them.
-/
import proofs.«146360_j67980742361871_2_alg».proof.Proof.Gen.ReferenceIdeal.Read
import proofs.«146360_j67980742361871_2_alg».proof.Proof.Layers
import proofs.«146360_j67980742361871_2_alg».proof.Proof.RefEdge

noncomputable section

namespace Cert.RefNet

open Cert.ReferenceIdeal Cert.ReferenceIdeal.Read Cert.Layers Idealize.ShloMosaic Idealize.ShloMosaic.ValueIdx
open scoped BigOperators

/-! ## The transposed weights -/

/-- The node stage's first weight with its axes exchanged. -/
theorem transpose_w2a (x8 : Arr S512x512) : val_main_v71 (F := Ideal) x8 = tr x8 := by
  funext i
  obtain ⟨p, q, rfl⟩ : ∃ (p : Fin 512) (q : Fin 512), i = ix2 p q := ⟨i 0, i 1, eq_ix2 i⟩
  rw [val_main_v71_apply]
  exact congrArg x8 (funext fun a => by match a with | ⟨0, _⟩ => rfl | ⟨1, _⟩ => rfl)

/-- The node stage's second weight with its axes exchanged. -/
theorem transpose_w2b (x10 : Arr S512x512) : val_main_v77 (F := Ideal) x10 = tr x10 := by
  funext i
  obtain ⟨p, q, rfl⟩ : ∃ (p : Fin 512) (q : Fin 512), i = ix2 p q := ⟨i 0, i 1, eq_ix2 i⟩
  rw [val_main_v77_apply]
  exact congrArg x10 (funext fun a => by match a with | ⟨0, _⟩ => rfl | ⟨1, _⟩ => rfl)

/-! ## The row means -/

/-- The summed messages divided, row by row, by the clamped count. -/
theorem mean_ref (x0 : Arr S50000x510) (x1 : Arr S100000x1) (x2 : IArr S100000x2) (x3 : Arr S50000x2)
    (x4 : Arr S512x1024) (x5 : Arr S512) (x6 : Arr S1024x512) (x7 : Arr S1024) :
    val_main_v70 (F := Ideal) x0 x1 x2 x3 x4 x5 x6 x7
      = meanRows (val_main_v50 (F := Ideal) x0 x1 x2 x3 x4 x5 x6 x7) (colOf (val_main_v66 (F := Ideal) x2)) := by
  funext i
  obtain ⟨r, c, rfl⟩ : ∃ (r : Fin 50000) (c : Fin 512), i = ix2 r c := ⟨i 0, i 1, eq_ix2 i⟩
  rw [meanRows_apply, val_main_v70_apply, val_main_v69_apply, val_main_v68_apply, val_main_v67_apply,
    val_main_call2_v1_apply, val_main_call2_v0_apply, val_main_cst_13_apply]
  have e : idx_main_v68 (idx_main_v69 (ix2 r c)) = ix1 r :=
    funext fun a => by match a with | ⟨0, _⟩ => rfl
  simp only [e, Ideal.hostDivf_def, Ideal.maximumf_def, Ideal.ofBits_def]
  rw [max_comm]
  rfl

/-! ## The two layers, each as a whole array -/

/-- The first layer: the row means against the transposed first weight, the bias, the clamp. -/
theorem layer3_ref (x0 : Arr S50000x510) (x1 : Arr S100000x1) (x2 : IArr S100000x2) (x3 : Arr S50000x2)
    (x4 : Arr S512x1024) (x5 : Arr S512) (x6 : Arr S1024x512) (x7 : Arr S1024) (x8 : Arr S512x512) (x9 : Arr S512) :
    val_main_v76 (F := Ideal) x0 x1 x2 x3 x4 x5 x6 x7 x8 x9
      = dense (val_main_v70 (F := Ideal) x0 x1 x2 x3 x4 x5 x6 x7) (tr x8) (rowOf x9) := by
  funext i
  obtain ⟨p, q, rfl⟩ : ∃ (p : Fin 50000) (q : Fin 512), i = ix2 p q := ⟨i 0, i 1, eq_ix2 i⟩
  rw [dense_apply, val_main_v76_apply, val_main_v75_apply, val_main_v72_apply, val_main_v74_apply,
    val_main_v73_apply, val_main_call3_v0_apply, val_main_call3_cst_apply]
  have e1 : ∀ k : Fin 512, lidx_main_v72 (ix2 p q) k = ix2 p k :=
    fun k => funext fun a => by match a with | ⟨0, _⟩ => rfl | ⟨1, _⟩ => rfl
  have e2 : ∀ k : Fin 512, idx_main_v71 (ridx_main_v72 (ix2 p q) k) = ix2 q k :=
    fun k => funext fun a => by match a with | ⟨0, _⟩ => rfl | ⟨1, _⟩ => rfl
  have e3 : idx_main_v73 (idx_main_v74 (ix2 p q)) = ix1 q :=
    funext fun a => by match a with | ⟨0, _⟩ => rfl
  simp only [val_main_v71_apply, e1, e2, e3, Ideal.maximumf_def, Ideal.addf_def, Ideal.ofBits_def]
  rfl

/-- The second layer: the first layer's rows against the transposed second weight, the bias, the clamp. -/
theorem layer4_ref (x0 : Arr S50000x510) (x1 : Arr S100000x1) (x2 : IArr S100000x2) (x3 : Arr S50000x2)
    (x4 : Arr S512x1024) (x5 : Arr S512) (x6 : Arr S1024x512) (x7 : Arr S1024) (x8 : Arr S512x512) (x9 : Arr S512)
    (x10 : Arr S512x512) (x11 : Arr S512) :
    val_main_v82 (F := Ideal) x0 x1 x2 x3 x4 x5 x6 x7 x8 x9 x10 x11
      = dense (val_main_v76 (F := Ideal) x0 x1 x2 x3 x4 x5 x6 x7 x8 x9) (tr x10) (rowOf x11) := by
  funext i
  obtain ⟨p, q, rfl⟩ : ∃ (p : Fin 50000) (q : Fin 512), i = ix2 p q := ⟨i 0, i 1, eq_ix2 i⟩
  rw [dense_apply, val_main_v82_apply, val_main_v81_apply, val_main_v78_apply, val_main_v80_apply,
    val_main_v79_apply, val_main_call4_v0_apply, val_main_call4_cst_apply]
  have e1 : ∀ k : Fin 512, lidx_main_v78 (ix2 p q) k = ix2 p k :=
    fun k => funext fun a => by match a with | ⟨0, _⟩ => rfl | ⟨1, _⟩ => rfl
  have e2 : ∀ k : Fin 512, idx_main_v77 (ridx_main_v78 (ix2 p q) k) = ix2 q k :=
    fun k => funext fun a => by match a with | ⟨0, _⟩ => rfl | ⟨1, _⟩ => rfl
  have e3 : idx_main_v79 (idx_main_v80 (ix2 p q)) = ix1 q :=
    funext fun a => by match a with | ⟨0, _⟩ => rfl
  simp only [val_main_v77_apply, e1, e2, e3, Ideal.maximumf_def, Ideal.addf_def, Ideal.ofBits_def]
  rfl

/-! ## The node stage -/

/-- The program's result: two layers over the row means of the summed messages. -/
theorem node_ref (x0 : Arr S50000x510) (x1 : Arr S100000x1) (x2 : IArr S100000x2) (x3 : Arr S50000x2)
    (x4 : Arr S512x1024) (x5 : Arr S512) (x6 : Arr S1024x512) (x7 : Arr S1024) (x8 : Arr S512x512) (x9 : Arr S512)
    (x10 : Arr S512x512) (x11 : Arr S512) :
    val_main_v82 (F := Ideal) x0 x1 x2 x3 x4 x5 x6 x7 x8 x9 x10 x11
      = dense (dense (meanRows (val_main_v50 (F := Ideal) x0 x1 x2 x3 x4 x5 x6 x7)
          (colOf (val_main_v66 (F := Ideal) x2))) (tr x8) (rowOf x9)) (tr x10) (rowOf x11) := by
  rw [layer4_ref, layer3_ref, mean_ref]

end Cert.RefNet

end
-- ==== Proof.KernelValue.lean ====
/-
  The idealized kernel's result is the reference's result term of the same launch arrays.

  At the edge region's entry the windows hold the reference's gathered rows, the edge weights, and the re-laid
  weights; its two outputs after the last block are therefore the left and the right 512 columns of the two-layer
  edge stage of those arrays, which — a sum over 512 + 512 positions being the sum over the first 512 plus the sum
  over the last 512 — is the reference's edge stage: the reference's two halves. The host lines between the regions
  then add those halves into the nodes' rows exactly as the reference does, so the node region is entered with the
  reference's pooled sums and counts and the re-laid node weights, and its output after the last block is the
  reference's node stage of them: the reference's result.
-/
import proofs.«146360_j67980742361871_2_alg».proof.Proof.KernelHost
import proofs.«146360_j67980742361871_2_alg».proof.Proof.EdgeRegion
import proofs.«146360_j67980742361871_2_alg».proof.Proof.NodeRegion
import proofs.«146360_j67980742361871_2_alg».proof.Proof.RefEdge
import proofs.«146360_j67980742361871_2_alg».proof.Proof.RefNode

set_option maxRecDepth 16384

noncomputable section

namespace Cert.KernelValue

open Idealize.ShloMosaic Idealize.ShloMosaic.TcCoe Idealize.SL.Sem Idealize.ShloMosaic.ValueIdx
open Cert.KernelIdeal Cert.KernelIdeal.Gen Cert.Layers Cert.KernelHost

variable (m : (ℓ : Loc nD τ sig) → Buf (Elt Ideal) ℓ) (ρ : Dev nD → PrngReg) (c : Dev nD)

/-- The two-layer edge stage of the edge region's entry arrays is the reference's edge stage of the launch arrays. -/
theorem entry0_layers :
    dense (edge1 (Cert.EdgeRegion.A0 (V1 m ρ) c) (Cert.EdgeRegion.A1 (V1 m ρ) c) (Cert.EdgeRegion.A2 (V1 m ρ) c)
        (Cert.EdgeRegion.A3 (V1 m ρ) c) (Cert.EdgeRegion.A4 (V1 m ρ) c) (Cert.EdgeRegion.A5 (V1 m ρ) c))
        (Cert.EdgeRegion.A6 (V1 m ρ) c) (Cert.EdgeRegion.A7 (V1 m ρ) c)
      = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h0 : Cert.EdgeRegion.A0 (V1 m ρ) c = Cert.ReferenceIdeal.Read.val_main_v11 (F := Ideal) (m ((c : Thread nD τ).loc main_arg0)) (m ((c : Thread nD τ).loc main_arg2)) (m ((c : Thread nD τ).loc main_arg3)) := entry0_src m ρ c
  have h1 : Cert.EdgeRegion.A1 (V1 m ρ) c = Cert.ReferenceIdeal.Read.val_main_v18 (F := Ideal) (m ((c : Thread nD τ).loc main_arg0)) (m ((c : Thread nD τ).loc main_arg2)) (m ((c : Thread nD τ).loc main_arg3)) := entry0_obj m ρ c
  have h2 : Cert.EdgeRegion.A2 (V1 m ρ) c = (m ((c : Thread nD τ).loc main_arg1)) := entry0_ew m ρ c
  have h3 : Cert.EdgeRegion.A3 (V1 m ρ) c = topRows two512 (tr ((m ((c : Thread nD τ).loc main_arg4)) : Mat 512 1024)) := entry0_top m ρ c
  have h4 : Cert.EdgeRegion.A4 (V1 m ρ) c = botRows two512 (tr ((m ((c : Thread nD τ).loc main_arg4)) : Mat 512 1024)) := entry0_bot m ρ c
  have h5 : Cert.EdgeRegion.A5 (V1 m ρ) c = rowOf (m ((c : Thread nD τ).loc main_arg5)) := entry0_b1 m ρ c
  have h6 : Cert.EdgeRegion.A6 (V1 m ρ) c = tr ((m ((c : Thread nD τ).loc main_arg6)) : Mat 1024 512) := entry0_w2 m ρ c
  have h7 : Cert.EdgeRegion.A7 (V1 m ρ) c = rowOf (m ((c : Thread nD τ).loc main_arg7)) := entry0_b2 m ρ c
  rw [h0, h1, h2, h3, h4, h5, h6, h7]
  exact (Cert.RefNet.edge_ref _ _ _ _ _ _ _ _).symm

/-- The edge region leaves the reference's left half in its first output … -/
theorem exit0_src : W2 (F := Ideal) m ρ c (Proc.devRef .tc main_v30_0)
    = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (show W2 (F := Ideal) m ρ c (Proc.devRef .tc main_v30_0) = (dat0 (V1 m ρ) c).arrAt 8 cfg0.N from W2_arr m ρ c 8).trans ?_
  refine (Cert.EdgeRegion.edge_src (V1 m ρ) c).trans ?_
  rw [entry0_layers]
  exact (Cert.RefNet.src_ref _ _ _ _ _ _ _ _).symm

/-- … and the reference's right half in its second. -/
theorem exit0_obj : W2 (F := Ideal) m ρ c (Proc.devRef .tc main_v30_1)
    = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (show W2 (F := Ideal) m ρ c (Proc.devRef .tc main_v30_1) = (dat0 (V1 m ρ) c).arrAt 9 cfg0.N from W2_arr m ρ c 9).trans ?_
  refine (Cert.EdgeRegion.edge_obj (V1 m ρ) c).trans ?_
  rw [entry0_layers]
  exact (Cert.RefNet.obj_ref _ _ _ _ _ _ _ _).symm

/-- The result buffer after the node region's last block is the reference's result term of the launch arrays. -/
theorem result_eq : W4 (F := Ideal) m ρ c (Proc.devRef .tc main_v69)
    = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (show W4 (F := Ideal) m ρ c (Proc.devRef .tc main_v69) = (dat1 (V3 m ρ) c).arrAt 6 cfg1.N from W4_arr m ρ c 6).trans ?_
  refine (Cert.NodeRegion.node_out (V3 m ρ) c).trans ?_
  have g0 : Cert.NodeRegion.arr0 (V3 m ρ) c = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    entry1_pool m ρ c _ _ _ _ _ _ _ _ rfl (exit0_src m ρ c) (exit0_obj m ρ c)
  have g1 : Cert.NodeRegion.arr1 (V3 m ρ) c = colOf (Cert.ReferenceIdeal.Read.val_main_v66 (F := Ideal) (m ((c : Thread nD τ).loc main_arg2))) := entry1_cnt m ρ c
  have g2 : Cert.NodeRegion.arr2 (V3 m ρ) c = tr ((m ((c : Thread nD τ).loc main_arg8)) : Mat 512 512) := entry1_w1 m ρ c
  have g3 : Cert.NodeRegion.arr3 (V3 m ρ) c = rowOf (m ((c : Thread nD τ).loc main_arg9)) := entry1_b1 m ρ c
  have g4 : Cert.NodeRegion.arr4 (V3 m ρ) c = tr ((m ((c : Thread nD τ).loc main_arg10)) : Mat 512 512) := entry1_w2 m ρ c
  have g5 : Cert.NodeRegion.arr5 (V3 m ρ) c = rowOf (m ((c : Thread nD τ).loc main_arg11)) := entry1_b2 m ρ c
  rw [g0, g1, g2, g3, g4, g5]
  exact (Cert.RefNet.node_ref _ _ _ _ _ _ _ _ _ _ _ _).symm

end Cert.KernelValue

end
-- ==== Proof.lean ====
/-
  The certificate's five claims.

  The network has two stages. The edge stage takes, for each of 100000 edges, the rows of its source and of its object
  in the node table (the embeddings with two noise columns joined on), scales them by the edge's weight, and applies
  two linear layers, each followed by the clamp at zero; the 1024 outputs of an edge are a message of 512 numbers for
  its source and one for its object. The node stage adds every node's messages, divides by the number of them
  (clamped below at one), and applies two more clamped linear layers.

  The reference joins the two rows of an edge into one row of 1024 numbers before the first layer. The kernel keeps
  them apart and multiplies each by its half of the first weight; a sum over 512 + 512 positions is the sum over the
  first 512 plus the sum over the last 512, so on the extended reals the two first layers agree, with no assumption
  on the inputs. Everything else — the gathers, the scatter-adds, the counts, the remaining layers — is the same
  operations on the same arrays in both programs, the kernel computing its layers a block of rows at a time, which
  changes nothing because a layer's row depends on the same row of its input only. A change of float format is the
  identity on extended reals. So the kernel's result buffer ends at the reference's result term of the launch arrays.

  The frames of the two kernel programs are the generated ones; the reference has no kernel and its frame is its run
  with the result dropped; the idealization rewrote nothing, so there is nothing to preserve.
-/
import proofs.«146360_j67980742361871_2_alg».proof.Defs
import proofs.«146360_j67980742361871_2_alg».proof.Proof.Gen.Kernel
import proofs.«146360_j67980742361871_2_alg».proof.Proof.Gen.Kernel.Skeleton
import proofs.«146360_j67980742361871_2_alg».proof.Proof.Gen.Kernel.Launch
import proofs.«146360_j67980742361871_2_alg».proof.Proof.Gen.Kernel.Points
import proofs.«146360_j67980742361871_2_alg».proof.Proof.Gen.Kernel.Frame
import proofs.«146360_j67980742361871_2_alg».proof.Proof.Gen.KernelIdeal
import proofs.«146360_j67980742361871_2_alg».proof.Proof.Gen.KernelIdeal.Skeleton
import proofs.«146360_j67980742361871_2_alg».proof.Proof.Gen.KernelIdeal.Launch
import proofs.«146360_j67980742361871_2_alg».proof.Proof.Gen.KernelIdeal.Points
import proofs.«146360_j67980742361871_2_alg».proof.Proof.Gen.KernelIdeal.Frame
import proofs.«146360_j67980742361871_2_alg».proof.Proof.Gen.ReferenceIdeal
import proofs.«146360_j67980742361871_2_alg».proof.Proof.Gen.ReferenceIdeal.Run
import proofs.«146360_j67980742361871_2_alg».proof.Proof.Gen.ReferenceIdeal.Read
import proofs.«146360_j67980742361871_2_alg».proof.Proof.Gen.Pre_finite_inputs
import proofs.«146360_j67980742361871_2_alg».proof.Proof.KernelRun
import proofs.«146360_j67980742361871_2_alg».proof.Proof.KernelValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  -- the word-level kernel runs and leaves its arguments as launched
  fun m ρ _ => Cert.Kernel.Gen.frame m ρ,
  -- so does the idealized kernel
  fun m ρ _ => Cert.KernelIdeal.Gen.frame m ρ,
  -- the reference's run, its result dropped
  fun m ρ _ => (θ_run Cert.ReferenceIdeal.defs _ _).mono (fun _ h c => (h c).2) (Cert.ReferenceIdeal.Value.run (F := Ideal) m ρ),
  -- the idealization rewrote no operation
  trivial,
  -- both idealized programs end with the reference's result term of the launch arrays
  by
    intro m ρ m' ρ' _ hagree
    refine ⟨fun c => Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
    · exact (θ_run Cert.KernelIdeal.defs _ _).mono
        (fun r h c => ⟨(h c).1.trans (Cert.KernelValue.result_eq m ρ c), (h c).2⟩) (Cert.KernelRun.run_result (F := Ideal) m ρ)
    · refine (θ_run Cert.ReferenceIdeal.defs _ _).mono (fun r h c => ⟨?_, (h c).2⟩) (Cert.ReferenceIdeal.Value.run (F := Ideal) m' ρ')
      obtain ⟨h0, h1, h2, h3, h4, h5, h6, h7, h8, h9, h10, h11⟩ := hagree c
      rw [(h c).1, Cert.ReferenceIdeal.Read.val_main_v82_eq, h0, h1, h2, h3, h4, h5, h6, h7, h8, h9, h10, h11]⟩

end Cert.Proof

end
